-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S3x8192 : S_.BroadcastsInDim S3x8192 (![] : Fin 0 → Fin S3x8192.rank)
  reducesTo_S3x8192_S_d0_1 : S3x8192.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S3x8192 .f32) (main_arg6 : FVec F S128 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S3x8192 .f32 := Host.absf main_arg5
  let main_cst_8 : FVec F S_ .f32 := constant S_ .f32 0x7F800000#32
  let main_v25 : FVec F S3x8192 .f32 := broadcastInDim S3x8192 ![] bcast_S_S3x8192 main_cst_8
  let main_v26 : IVec S3x8192 1 := cmpf .olt main_v24 main_v25
  let main_c_9 : IVec S_ 1 := constantI S_ 1 1#1
  let main_v27 : IVec S_ 1 := (fun x v => Host.reduce IntOp.andi x v reducesTo_S3x8192_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8192x128 .f32) (main_arg1 : FVec F S3x8192 .f32) (main_arg2 : FVec F S8192x8192 .f32) (main_arg3 : FVec F S8192x8192 .f32) (main_arg4 : FVec F S128x128 .f32) (main_arg5 : FVec F S3x8192 .f32) (main_arg6 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S3x8192 .f32 := Host.absf main_arg1
  let main_cst_0 : FVec F S_ .f32 := constant S_ .f32 0x7F800000#32
  let main_v5 : FVec F S3x8192 .f32 := broadcastInDim S3x8192 ![] bcast_S_S3x8192 main_cst_0
  let main_v6 : IVec S3x8192 1 := cmpf .olt main_v4 main_v5
  let main_c_1 : IVec S_ 1 := constantI S_ 1 1#1
  let main_v7 : IVec S_ 1 := (fun x v => Host.reduce IntOp.andi x v reducesTo_S3x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_v13 main_v16
-- ==== Kernel.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S1024x2048 : Shape := ⟨2, ![1024, 2048]⟩
abbrev S1024x1 : Shape := ⟨2, ![1024, 1]⟩
abbrev S1024x128 : Shape := ⟨2, ![1024, 128]⟩
abbrev S2048x128 : Shape := ⟨2, ![2048, 128]⟩

abbrev nBuf : Space → Nat
  | .hbm => 16
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S3x8192, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S3x8192, .f32⟩
  | .hbm, ⟨6, _⟩ => ⟨S128, .f32⟩
  | .hbm, ⟨7, _⟩ => ⟨S8192x128, .f32⟩
  | .hbm, ⟨8, _⟩ => ⟨S3x8192, .f32⟩
  | .hbm, ⟨9, _⟩ => ⟨S3x8192, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x128, .f32⟩
  | .hbm, ⟨14, _⟩ => ⟨S8192x128, .f32⟩
  | .hbm, ⟨15, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S8192x128, .f32⟩
  | .local _ .vmem, ⟨3, _⟩ => ⟨S1024x1, .f32⟩
  | .local _ .vmem, ⟨4, _⟩ => ⟨S1024x1, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S8192x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S3x8192_S8192_d0 : S3x8192.ReducesTo [0] S8192
  h_S_ : 0 < S_.numel
  shapeCasts_S8192_S8192x1 : S8192.ShapeCasts S8192x1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x128 : 0 < S2048x128.numel
  shapeCasts_S2048x128_S2048x128 : S2048x128.ShapeCasts S2048x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S8192x128_S128x128_S8192x128_1_0_0_1_n_n_wf : DotDims.WF S8192x128 S128x128 S8192x128 [1] [0] [0] [1] [] []
  dot_S1024x2048_S2048x128_S1024x128_1_0_0_1_n_n_wf : DotDims.WF S1024x2048 S2048x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S3x8192 : Shape := ⟨2, ![3, 8192]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S3x8192, .f32⟩
  | .hbm, ⟨2, _⟩ => ⟨S8192x8192, .f32⟩
  | .hbm, ⟨3, _⟩ => ⟨S8192x8192, .f32⟩
  | .hbm, ⟨4, _⟩ => ⟨S128x128, .f32⟩
  | .hbm, ⟨5, _⟩ => ⟨S3x8192, .f32⟩
  | .hbm, ⟨6, _⟩ => ⟨S128, .f32⟩
  | .hbm, ⟨7, _⟩ => ⟨S8192x128, .f32⟩
  | .hbm, ⟨8, _⟩ => ⟨S8192x128, .f32⟩
  | .hbm, ⟨9, _⟩ => ⟨S3x8192, .f32⟩
  | .hbm, ⟨10, _⟩ => ⟨S3x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  reducesTo_S3x8192_S8192_d0 : S3x8192.ReducesTo [0] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsBody0.lean ====
import proofs.«108723_j47047071760998_2_alg».proof.Proof.Gen.Kernel.Launch
import proofs.«108723_j47047071760998_2_alg».proof.Proof.Gen.Kernel.Skeleton
import proofs.«108723_j47047071760998_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The first kernel's body, point by point

(Stated for the program as printed, read at machine words; the twin module states the same for the idealized program,
whose text is the same.)

One grid point (i, k) of the first kernel multiplies the (i, k) tile of the left matrix by rows
`2048·k … 2048·k + 2047` of the resident right operand and adds the product to an accumulator kept in a scratch
buffer: the accumulator starts from zero at `k = 0`, and at the last `k` the accumulated tile, each row times that
row's scale, is stored into the output tile. The three theorems below are the body's triple in the three control
cases (first `k`, a middle `k`, last `k`), with what the scratch buffer and the output tile hold afterwards
stated over the body's named arithmetic. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The body's first branch is taken: the point is the first along the contraction axis. -/
abbrev first0 (i : grid0.Coords) : Prop := (Scalar.cmpi .ne (Scalar.extui (Scalar.cmpi .eq (BitVec.ofNat 32 (i 1).val) 0#32)) 0#32) = 1#1
/-- The body's second branch is taken: the point is the last along the contraction axis. -/
abbrev last0 (i : grid0.Coords) : Prop := k0_cond2 i = 1#1

/-- The rows of the resident right operand that point `i` multiplies by. -/
abbrev rowsAt0 (i : grid0.Coords) : Rect S8192x128 := Rect.unit (s := S8192x128) (k0_off1 i) S2048x128.size (k0_off1_inb i)

theorem zero2 : (![0, 0] : Fin 2 → ℕ) = fun _ => 0 := by funext a; fin_cases a <;> rfl

/-- The accumulator after a first point: the tile product added to the zero tile. -/
def accFirst0 (x0 : Vec F S1024x2048 .f32) (xb : Vec F S8192x128 .f32) (i : grid0.Coords) : Vec F S1024x128 .f32 :=
  k0_pay2 x0 (View.ld xb (rowsAt0 i)) (k0_pay1 (F := F))
/-- The accumulator after a later point: the tile product added to what the point before left. -/
def accNext0 (x0 : Vec F S1024x2048 .f32) (xb : Vec F S8192x128 .f32) (i : grid0.Coords) (xs : Vec F S1024x128 .f32) : Vec F S1024x128 .f32 :=
  k0_pay2 x0 (View.ld xb (rowsAt0 i)) xs
/-- The output tile a last point stores: the accumulated tile, each row times its scale. -/
def outLast0 (acc : Vec F S1024x128 .f32) (xv : Vec F S1024x1 .f32) : Vec F S1024x128 .f32 := k0_pay3 acc xv

set_option maxHeartbeats 1000000 in
/-- A middle point: the inputs and the output tile are left as found, the scratch ends at `accNext0`. -/
theorem body0_mid (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : ¬first0 i) (hc1 : ¬last0 i)
    (x0 : Vec F S1024x2048 .f32) (xb : Vec F S8192x128 .f32) (xv : Vec F S1024x1 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accNext0 x0 xb i xs)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

set_option maxHeartbeats 1000000 in
/-- A first point: the scratch, whatever it held, ends at `accFirst0`; the inputs and the output tile are left as found. -/
theorem body0_first (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : first0 i) (hc1 : ¬last0 i)
    (x0 : Vec F S1024x2048 .f32) (xb : Vec F S8192x128 .f32) (xv : Vec F S1024x1 .f32) (xo : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ (∃ d, owns (c : Thread nD τ) arg6 fullShare d)
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accFirst0 x0 xb i)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, View.ld_unit_zero (S := S1024x2048) zero2, View.ld_unit_zero (S := S1024x128) zero2, View.readCov_unit_zero (S := S1024x128) _ zero2]
  rfl

set_option maxHeartbeats 1000000 in
/-- A last point: the scratch ends at `accNext0` and the output tile, whatever it held, at `outLast0` of that and the scale column. -/
theorem body0_last (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : ¬first0 i) (hc1 : last0 i)
    (x0 : Vec F S1024x2048 .f32) (xb : Vec F S8192x128 .f32) (xv : Vec F S1024x1 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ (∃ d, owns (c : Thread nD τ) arg5 fullShare d) ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare (outLast0 (accNext0 x0 xb i xs) xv) ∗ owns (c : Thread nD τ) arg6 fullShare (accNext0 x0 xb i xs)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S1024x128_S1024x128_0_0 y⟩), View.canon_cons_unit_zero zero2]
    simp only [View.readAt_eq_ld, hf0, hf1, hf2, hfs, View.ld_unit_zero (S := S1024x2048) zero2, View.ld_unit_zero (S := S1024x128) zero2, View.ld_unit_zero (S := S1024x1) zero2, View.readCov_unit_zero (S := S1024x128) _ zero2]
    rfl
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

end Cert.Kernel.Hand
end
-- ==== Proof.BitsRegion0.lean ====
import proofs.«108723_j47047071760998_2_alg».proof.Proof.BitsBody0

set_option maxRecDepth 16384

noncomputable section

/-! # The first kernel over its grid

(Stated for the program as printed, read at machine words; the twin module states the same for the idealized program,
whose text is the same.)

The grid is 8 row tiles by 4 contraction tiles, the contraction axis innermost: point `t` is row tile `t / 4`,
contraction tile `t % 4`. The scratch accumulator after point `t` is the sum of the tile products of row tile
`t / 4` over contraction tiles `0 … t % 4` (`accAt0`, by recursion on the point: restarted at `t % 4 = 0`,
continued otherwise), and at `t % 4 = 3` the output tile is that accumulator scaled row by row. This module
states those contents, the region's invariant that keeps the scratch at `accAt0` between points, the region's
proof data over them, and the body's obligation at every point from the three triples of the body. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not
    fetched the block index has not moved since the point before. -/
theorem before_in0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, fetched there or not: where it is not
    fetched the block index has not moved since the point before. -/
theorem before_in0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, fetched there or not: where it is not
    fetched the block index has not moved since the point before. -/
theorem before_in0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The control cases over the grid -/

/-- The first branch is taken exactly at the points with contraction tile 0. -/
theorem first0_iff : ∀ t : Fin cfg0.N, first0 (grid0.coords t) ↔ t.val % 4 = 0 :=
  (by decide +kernel : ∀ t : Fin grid0.N, first0 (grid0.coords t) ↔ t.val % 4 = 0)
/-- The second branch is taken exactly at the points with contraction tile 3. -/
theorem last0_iff : ∀ t : Fin cfg0.N, last0 (grid0.coords t) ↔ t.val % 4 = 3 :=
  (by decide +kernel : ∀ t : Fin grid0.N, last0 (grid0.coords t) ↔ t.val % 4 = 3)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction tile nothing is stored into the output tile, and it is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-! ## What the scratch and the output tile hold after each point -/

/-- The kernel's scratch accumulator, as a memref. -/
abbrev scr0 : Memref sig .tc .vmem S1024x128 .f32 := Memref.whole cc0_scratch0

/-- The accumulator after point `n`: restarted from zero at contraction tile 0, continued from the point before otherwise. -/
def accAt0 (c : Dev nD) : (n : ℕ) → n < cfg0.N → Vec F S1024x128 .f32
  | 0, hn => accFirst0 (blk0 V c 0 ⟨0, hn⟩) (blk0 V c 1 ⟨0, hn⟩) (grid0.coords ⟨0, hn⟩)
  | n + 1, hn =>
    if (n + 1) % 4 = 0 then accFirst0 (blk0 V c 0 ⟨n + 1, hn⟩) (blk0 V c 1 ⟨n + 1, hn⟩) (grid0.coords ⟨n + 1, hn⟩)
    else accNext0 (blk0 V c 0 ⟨n + 1, hn⟩) (blk0 V c 1 ⟨n + 1, hn⟩) (grid0.coords ⟨n + 1, hn⟩) (accAt0 c n (Nat.lt_of_succ_lt hn))

theorem accAt0_first (c : Dev nD) (t : Fin cfg0.N) (h : t.val % 4 = 0) :
    accAt0 V c t.val t.isLt = accFirst0 (blk0 V c 0 t) (blk0 V c 1 t) (grid0.coords t) := by
  obtain ⟨n, hn⟩ := t
  cases n with
  | zero => rfl
  | succ n => exact if_pos h

theorem accAt0_next (c : Dev nD) (t : Fin cfg0.N) (h : ¬t.val % 4 = 0) :
    accAt0 V c t.val t.isLt = accNext0 (blk0 V c 0 t) (blk0 V c 1 t) (grid0.coords t)
      (accAt0 V c (t.val - 1) (Nat.lt_of_le_of_lt (Nat.sub_le _ _) t.isLt)) := by
  obtain ⟨n, hn⟩ := t
  cases n with
  | zero => exact absurd (Nat.zero_mod _) h
  | succ n => exact if_neg h

/-- What a last point stores into the output tile (consulted only where the tile is written back). -/
def outAt0 (c : Dev nD) (t : Fin cfg0.N) : Vec F S1024x128 .f32 := outLast0 (accAt0 V c t.val t.isLt) (blk0 V c 2 t)

/-! ## The region's invariant -/

/-- The core's other scoped buffers that no window of this region stages: the second region's. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch accumulator named. -/
theorem PhiA0_eq (c : Dev nD) :
    (Pipeline.ΦA spec0 c : sProp 𝕄) = iprop(((∃ d, owns (c : Thread nD τ) scr0 fullShare d) ∗ others0 c) ∗ (∃ r, prngReg c r)) := by
  unfold Pipeline.ΦA others0; rw [scopedRest0_eq]; simp only [scr0, owns_whole]; rfl

/-- Before point `n`: before the first point the scratch holds anything; afterwards what the point before left. -/
def Inv0 (c : Dev nD) : (n : ℕ) → n ≤ cfg0.N → sProp 𝕄
  | 0, _ => Pipeline.ΦA spec0 c
  | n + 1, hn => iprop((owns (c : Thread nD τ) scr0 fullShare (accAt0 V c n hn) ∗ others0 c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop((owns (c : Thread nD τ) scr0 fullShare (accAt0 V c n hn) ∗ others0 c) ∗ (∃ r, prngReg c r)) := rfl
theorem Inv0_pos (c : Dev nD) (n : ℕ) (h : n ≤ cfg0.N) (hz : n ≠ 0) :
    Inv0 V c n h = iprop((owns (c : Thread nD τ) scr0 fullShare (accAt0 V c (n - 1) (by omega)) ∗ others0 c) ∗ (∃ r, prngReg c r)) := by
  cases n with
  | zero => exact absurd rfl hz
  | succ n => rfl

/-! ## The region's proof data -/

/-- The arrays as the region finds them; after the body each input's buffer at its block and the output's at
    `outAt0`; the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outAt0 V c t
  Φ t := Inv0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Inv0_castSucc (c : Dev nD) (t : Fin cfg0.N) : (dat0 V c).Φ t.castSucc = Inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = blk0 V c 0 t :=
  before_in0_0 V (dat0 V c) (A_eq0 V c 0) (after0_0 V c) t d
theorem before0_1 (c : Dev nD) (t : Fin cfg0.N) (d) : (dat0 V c).before 1 t d = blk0 V c 1 t :=
  before_in0_1 V (dat0 V c) (A_eq0 V c 1) (after0_1 V c) t d
theorem before0_2 (c : Dev nD) (t : Fin cfg0.N) (d) : (dat0 V c).before 2 t d = blk0 V c 2 t :=
  before_in0_2 V (dat0 V c) (A_eq0 V c 2) (after0_2 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]

set_option maxHeartbeats 4000000 in
/-- The body at any point: the inputs' buffers hold their blocks; the point's contraction tile says which of the
    three triples applies; the invariant hands the body the scratch at what the point before left (anything at
    the very first point) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2]
  have hN : t.val < 32 := lt_of_lt_of_eq t.isLt (show cfg0.N = 32 from N_0)
  by_cases h0 : t.val % 4 = 0
  · have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl)]
    rw [accAt0_first V c t h0]
    by_cases hz : t.val = 0
    · rw [Inv0_castSucc V c t, Inv0_zero V c _ _ hz, PhiA0_eq]
      iintro ⟨⟨⟨HS, Hoth⟩, Hg⟩, Ho, ⟨%d0, H0⟩, ⟨%d1, H1⟩, ⟨%d2, H2⟩, ⟨%d3, H3⟩⟩
      iapply (body0_first c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_first c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬first0 (grid0.coords t) := fun h => h0 ((first0_iff t).mp h)
    have hz : t.val ≠ 0 := fun e => h0 (by rw [e])
    rw [accAt0_next V c t h0]
    by_cases h1 : t.val % 4 = 3
    · have hl : last0 (grid0.coords t) := (last0_iff t).mpr h1
      rw [show (dat0 V c).leavesExact 3 t = owns (c : Thread nD τ) (st0_3 t) fullShare ((dat0 V c).after 3 t) from by
        unfold Dat.leavesExact; rw [live0_3 t hl], after0_3]
      unfold outAt0
      rw [accAt0_next V c t h0]
      rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_last c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬last0 (grid0.coords t) := fun h => h1 ((last0_iff t).mp h)
      rw [Dat.leavesExact_idle (dat0 V c) 3 t (idle0_3 t hl) (noFlush0_3 t hl)]
      rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_mid c (grid0.coords t) _ _ _ _ _ _ _ _ _ _ hf hl (blk0 V c 0 t) (blk0 V c 1 t) (blk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.Kernel.Hand
end
-- ==== Proof.BitsBody1.lean ====
import proofs.«108723_j47047071760998_2_alg».proof.Proof.BitsBody0

set_option maxRecDepth 16384

noncomputable section

/-! # The second kernel's body, point by point

(Stated for the program as printed, read at machine words; the twin module states the same for the idealized program,
whose text is the same.)

The second kernel has the first one's structure: one grid point (i, k) multiplies the (i, k) tile of the left matrix
by rows `2048·k … 2048·k + 2047` of the resident right operand and adds the product to a scratch accumulator
started from zero at `k = 0`; at the last `k` the accumulated tile plus the bias row, repeated down the rows, is
stored into the output tile. The three theorems are the body's triple in the three control cases. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The body's first branch is taken: the point is the first along the contraction axis. -/
abbrev first1 (i : grid1.Coords) : Prop := (Scalar.cmpi .ne (Scalar.extui (Scalar.cmpi .eq (BitVec.ofNat 32 (i 1).val) 0#32)) 0#32) = 1#1
/-- The body's second branch is taken: the point is the last along the contraction axis. -/
abbrev last1 (i : grid1.Coords) : Prop := k1_cond2 i = 1#1

/-- The rows of the resident right operand that point `i` multiplies by. -/
abbrev rowsAt1 (i : grid1.Coords) : Rect S8192x128 := Rect.unit (s := S8192x128) (k1_off1 i) S2048x128.size (k1_off1_inb i)

/-- The accumulator after a first point: the tile product added to the zero tile. -/
def accFirst1 (x0 : Vec F S1024x2048 .f32) (xb : Vec F S8192x128 .f32) (i : grid1.Coords) : Vec F S1024x128 .f32 :=
  k1_pay2 x0 (View.ld xb (rowsAt1 i)) (k1_pay1 (F := F))
/-- The accumulator after a later point: the tile product added to what the point before left. -/
def accNext1 (x0 : Vec F S1024x2048 .f32) (xb : Vec F S8192x128 .f32) (i : grid1.Coords) (xs : Vec F S1024x128 .f32) : Vec F S1024x128 .f32 :=
  k1_pay2 x0 (View.ld xb (rowsAt1 i)) xs
/-- The output tile a last point stores: the accumulated tile plus the bias row, repeated down the rows. -/
def outLast1 (acc : Vec F S1024x128 .f32) (xv : Vec F S1x128 .f32) : Vec F S1024x128 .f32 := k1_pay3 acc xv

set_option maxHeartbeats 1000000 in
/-- A middle point: the inputs and the output tile are left as found, the scratch ends at `accNext1`. -/
theorem body1_mid (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : ¬first1 i) (hc1 : ¬last1 i)
    (x0 : Vec F S1024x2048 .f32) (xb : Vec F S8192x128 .f32) (xv : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accNext1 x0 xb i xs)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

set_option maxHeartbeats 1000000 in
/-- A first point: the scratch, whatever it held, ends at `accFirst1`; the inputs and the output tile are left as found. -/
theorem body1_first (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : first1 i) (hc1 : ¬last1 i)
    (x0 : Vec F S1024x2048 .f32) (xb : Vec F S8192x128 .f32) (xv : Vec F S1x128 .f32) (xo : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ (∃ d, owns (c : Thread nD τ) arg6 fullShare d)
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accFirst1 x0 xb i)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, View.ld_unit_zero (S := S1024x2048) zero2, View.ld_unit_zero (S := S1024x128) zero2, View.readCov_unit_zero (S := S1024x128) _ zero2]
  rfl

set_option maxHeartbeats 1000000 in
/-- A last point: the scratch ends at `accNext1` and the output tile, whatever it held, at `outLast1` of that and the bias row. -/
theorem body1_last (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : ¬first1 i) (hc1 : last1 i)
    (x0 : Vec F S1024x2048 .f32) (xb : Vec F S8192x128 .f32) (xv : Vec F S1x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ (∃ d, owns (c : Thread nD τ) arg5 fullShare d) ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare (outLast1 (accNext1 x0 xb i xs) xv) ∗ owns (c : Thread nD τ) arg6 fullShare (accNext1 x0 xb i xs)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S1024x128_S1024x128_0_0 y⟩), View.canon_cons_unit_zero zero2]
    simp only [View.readAt_eq_ld, hf0, hf1, hf2, hfs, View.ld_unit_zero (S := S1024x2048) zero2, View.ld_unit_zero (S := S1024x128) zero2, View.ld_unit_zero (S := S1x128) zero2, View.readCov_unit_zero (S := S1024x128) _ zero2]
    rfl
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

end Cert.Kernel.Hand
end
-- ==== Proof.BitsRegion1.lean ====
import proofs.«108723_j47047071760998_2_alg».proof.Proof.BitsBody1

set_option maxRecDepth 16384

noncomputable section

/-! # The second kernel over its grid

(Stated for the program as printed, read at machine words; the twin module states the same for the idealized program,
whose text is the same.)

The same 8 by 4 grid as the first kernel's, the contraction axis innermost: point `t` is row tile `t / 4`,
contraction tile `t % 4`. The scratch accumulator after point `t` is the sum of the tile products of row tile
`t / 4` over contraction tiles `0 … t % 4` (`accAt1`), and at `t % 4 = 3` the output tile is that accumulator
plus the bias row. This module states those contents, the invariant that keeps the scratch at `accAt1` between
points, the region's proof data, and the body's obligation at every point. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not
    fetched the block index has not moved since the point before. -/
theorem before_in1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, fetched there or not: where it is not
    fetched the block index has not moved since the point before. -/
theorem before_in1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, fetched there or not: where it is not
    fetched the block index has not moved since the point before. -/
theorem before_in1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The control cases over the grid -/

/-- The first branch is taken exactly at the points with contraction tile 0. -/
theorem first1_iff : ∀ t : Fin cfg1.N, first1 (grid1.coords t) ↔ t.val % 4 = 0 :=
  (by decide +kernel : ∀ t : Fin grid1.N, first1 (grid1.coords t) ↔ t.val % 4 = 0)
/-- The second branch is taken exactly at the points with contraction tile 3. -/
theorem last1_iff : ∀ t : Fin cfg1.N, last1 (grid1.coords t) ↔ t.val % 4 = 3 :=
  (by decide +kernel : ∀ t : Fin grid1.N, last1 (grid1.coords t) ↔ t.val % 4 = 3)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction tile nothing is stored into the output tile, and it is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## What the scratch and the output tile hold after each point -/

/-- The kernel's scratch accumulator, as a memref. -/
abbrev scr1 : Memref sig .tc .vmem S1024x128 .f32 := Memref.whole cc1_scratch0

/-- The accumulator after point `n`: restarted from zero at contraction tile 0, continued from the point before otherwise. -/
def accAt1 (c : Dev nD) : (n : ℕ) → n < cfg1.N → Vec F S1024x128 .f32
  | 0, hn => accFirst1 (blk1 V c 0 ⟨0, hn⟩) (blk1 V c 1 ⟨0, hn⟩) (grid1.coords ⟨0, hn⟩)
  | n + 1, hn =>
    if (n + 1) % 4 = 0 then accFirst1 (blk1 V c 0 ⟨n + 1, hn⟩) (blk1 V c 1 ⟨n + 1, hn⟩) (grid1.coords ⟨n + 1, hn⟩)
    else accNext1 (blk1 V c 0 ⟨n + 1, hn⟩) (blk1 V c 1 ⟨n + 1, hn⟩) (grid1.coords ⟨n + 1, hn⟩) (accAt1 c n (Nat.lt_of_succ_lt hn))

theorem accAt1_first (c : Dev nD) (t : Fin cfg1.N) (h : t.val % 4 = 0) :
    accAt1 V c t.val t.isLt = accFirst1 (blk1 V c 0 t) (blk1 V c 1 t) (grid1.coords t) := by
  obtain ⟨n, hn⟩ := t
  cases n with
  | zero => rfl
  | succ n => exact if_pos h

theorem accAt1_next (c : Dev nD) (t : Fin cfg1.N) (h : ¬t.val % 4 = 0) :
    accAt1 V c t.val t.isLt = accNext1 (blk1 V c 0 t) (blk1 V c 1 t) (grid1.coords t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- What a last point stores into the output tile (consulted only where the tile is written back). -/
def outAt1 (c : Dev nD) (t : Fin cfg1.N) : Vec F S1024x128 .f32 := outLast1 (accAt1 V c t.val t.isLt) (blk1 V c 2 t)

/-! ## The region's invariant -/

/-- The core's scoped buffers that no window of this region stages, the first region's ahead of this region's scratch
    accumulator, whose state is the parameter `X`. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The class invariant with the scratch accumulator named. -/
theorem PhiA1_eq (c : Dev nD) :
    (Pipeline.ΦA spec1 c : sProp 𝕄) = iprop(others1 c iprop(∃ d, owns (c : Thread nD τ) scr1 fullShare d) ∗ (∃ r, prngReg c r)) := by
  unfold Pipeline.ΦA others1; rw [scopedRest1_eq]; simp only [scr1, owns_whole]; rfl

/-- Before point `n`: before the first point the scratch holds anything; afterwards what the point before left. -/
def Inv1 (c : Dev nD) : (n : ℕ) → n ≤ cfg1.N → sProp 𝕄
  | 0, _ => Pipeline.ΦA spec1 c
  | n + 1, hn => iprop(others1 c (owns (c : Thread nD τ) scr1 fullShare (accAt1 V c n hn)) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(others1 c (owns (c : Thread nD τ) scr1 fullShare (accAt1 V c n hn)) ∗ (∃ r, prngReg c r)) := rfl
theorem Inv1_pos (c : Dev nD) (n : ℕ) (h : n ≤ cfg1.N) (hz : n ≠ 0) :
    Inv1 V c n h = iprop(others1 c (owns (c : Thread nD τ) scr1 fullShare (accAt1 V c (n - 1) (by omega))) ∗ (∃ r, prngReg c r)) := by
  cases n with
  | zero => exact absurd rfl hz
  | succ n => rfl

/-! ## The region's proof data -/

/-- The arrays as the region finds them; after the body each input's buffer at its block and the output's at
    `outAt1`; the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Inv1_castSucc (c : Dev nD) (t : Fin cfg1.N) : (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = blk1 V c 0 t :=
  before_in1_0 V (dat1 V c) (A_eq1 V c 0) (after1_0 V c) t d
theorem before1_1 (c : Dev nD) (t : Fin cfg1.N) (d) : (dat1 V c).before 1 t d = blk1 V c 1 t :=
  before_in1_1 V (dat1 V c) (A_eq1 V c 1) (after1_1 V c) t d
theorem before1_2 (c : Dev nD) (t : Fin cfg1.N) (d) : (dat1 V c).before 2 t d = blk1 V c 2 t :=
  before_in1_2 V (dat1 V c) (A_eq1 V c 2) (after1_2 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (st1_0 t) fullShare (blk1 V c 0 t) := by
  unfold Dat.leavesExact; rw [live1_0 t, after1_0]
theorem leaves1_1 (c : Dev nD) (t : Fin cfg1.N) : (dat1 V c).leavesExact 1 t = owns (c : Thread nD τ) (st1_1 t) fullShare (blk1 V c 1 t) := by
  unfold Dat.leavesExact; rw [live1_1 t, after1_1]
theorem leaves1_2 (c : Dev nD) (t : Fin cfg1.N) : (dat1 V c).leavesExact 2 t = owns (c : Thread nD τ) (st1_2 t) fullShare (blk1 V c 2 t) := by
  unfold Dat.leavesExact; rw [live1_2 t, after1_2]

set_option maxHeartbeats 4000000 in
/-- The body at any point: the inputs' buffers hold their blocks; the point's contraction tile says which of the
    three triples applies; the invariant hands the body the scratch at what the point before left (anything at
    the very first point) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 32 := lt_of_lt_of_eq t.isLt (show cfg1.N = 32 from N_1)
  by_cases h0 : t.val % 4 = 0
  · have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl)]
    rw [accAt1_first V c t h0]
    by_cases hz : t.val = 0
    · rw [Inv1_castSucc V c t, Inv1_zero V c _ _ hz, PhiA1_eq]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_first c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3
    · rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_first c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3
  · have hf : ¬first1 (grid1.coords t) := fun h => h0 ((first1_iff t).mp h)
    have hz : t.val ≠ 0 := fun e => h0 (by rw [e])
    rw [accAt1_next V c t h0]
    by_cases h1 : t.val % 4 = 3
    · have hl : last1 (grid1.coords t) := (last1_iff t).mpr h1
      rw [show (dat1 V c).leavesExact 3 t = owns (c : Thread nD τ) (st1_3 t) fullShare ((dat1 V c).after 3 t) from by
        unfold Dat.leavesExact; rw [live1_3 t hl], after1_3]
      unfold outAt1
      rw [accAt1_next V c t h0]
      rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_last c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexact H3
    · have hl : ¬last1 (grid1.coords t) := fun h => h1 ((last1_iff t).mp h)
      rw [Dat.leavesExact_idle (dat1 V c) 3 t (idle1_3 t hl) (noFlush1_3 t hl)]
      rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_mid c (grid1.coords t) _ _ _ _ _ _ _ _ _ _ hf hl (blk1 V c 0 t) (blk1 V c 1 t) (blk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 32 := N_1; omega), PhiA1_eq]
  unfold others1
  iintro ⟨⟨Ha, Hb, Hc, Hd, He, Hf, Hh, Hi, HS⟩, Hg⟩
  isplitl [Ha Hb Hc Hd He Hf Hh Hi HS]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    isplitl [Hi]; · iexact Hi
    iexists _; iexact HS
  iexact Hg

end Cert.Kernel.Hand
end
-- ==== Proof.BitsRun.lean ====
import proofs.«108723_j47047071760998_2_alg».proof.Proof.BitsRegion0
import proofs.«108723_j47047071760998_2_alg».proof.Proof.BitsRegion1

set_option maxRecDepth 16384

noncomputable section

/-! # The whole run

(Stated for the program as printed, read at machine words; the twin module states the same for the idealized program,
whose text is the same.)

@main is a stretch of host operations (the small product `x·W`, the scale vector, two reshapes) followed by the
two kernel regions, the second reading the first one's output. The buffers' contents at each boundary are a fold
from the launch memory: after the host stretch, the operations' results; after a region, its arrays at what its
write-backs leave and every other buffer as before. The run theorem says that every weakly fair execution
terminates, faulting nowhere, with every unscoped buffer at the last boundary's contents; read at an argument that
is the launch memory, read at the result it is what the second region's write-backs leave. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev atLaunch : Dev nD → Valuation τ sig (Elt F) := fun c b => m ((c : Dev nD), b)
/-- After the host stretch: the first region's entry. -/
abbrev atEntry : Dev nD → Valuation τ sig (Elt F) := fun c => StableHlo.after hostOps0 (atLaunch m c)
/-- The same, read at the TensorCore's references. -/
abbrev atEntryV : (c : Dev nD) → (b : Ref sig .tc) → Buf (Elt F) ((c : Thread nD τ).loc b) := fun c b => atEntry m c b
/-- After the first region: its arrays at what its write-backs leave, every other buffer as before. -/
def atExit0 (c : Dev nD) : Valuation τ sig (Elt F) :=
  Pipeline.withArrays spec0 c (atEntry m c) fun w => (dat0 (atEntryV m) c).arrAt w cfg0.N
theorem atExit0_arr (c : Dev nD) (w : Fin cfg0.W) :
    atExit0 m c (Proc.devRef .tc (Pipeline.arrRef spec0 w)) = (dat0 (atEntryV m) c).arrAt w cfg0.N := by
  unfold atExit0; exact Pipeline.withArrays_arr spec0 launch0.win.arr_inj c _ _ w
theorem atExit0_of_ne (c : Dev nD) (b : Ref sig .tc) (hb : ∀ w, Pipeline.arrRef spec0 w ≠ b) :
    atExit0 m c (Proc.devRef .tc b) = atEntry m c (Proc.devRef .tc b) := by
  unfold atExit0; exact Pipeline.withArrays_of_ne spec0 c _ _ b hb
abbrev atExit0V : (c : Dev nD) → (b : Ref sig .tc) → Buf (Elt F) ((c : Thread nD τ).loc b) := fun c b => atExit0 m c b
theorem hF0 (c : Dev nD) (w : Fin cfg0.W) : (dat0 (atEntryV m) c).arrAt w cfg0.N = atExit0V m c (Pipeline.arrRef spec0 w) :=
  (atExit0_arr m c w).symm
theorem hrest0 (c : Dev nD) : ∀ b, b ∉ Finset.univ.image (Pipeline.arrRef spec0) → atExit0V m c b = atEntryV m c b :=
  fun b hb => atExit0_of_ne m c b fun w e => hb (Finset.mem_image.mpr ⟨w, Finset.mem_univ _, e⟩)

/-- After the second region, entered at the first one's exit contents. -/
def atExit1 (c : Dev nD) : Valuation τ sig (Elt F) :=
  Pipeline.withArrays spec1 c (atExit0 m c) fun w => (dat1 (atExit0V m) c).arrAt w cfg1.N
theorem atExit1_arr (c : Dev nD) (w : Fin cfg1.W) :
    atExit1 m c (Proc.devRef .tc (Pipeline.arrRef spec1 w)) = (dat1 (atExit0V m) c).arrAt w cfg1.N := by
  unfold atExit1; exact Pipeline.withArrays_arr spec1 launch1.win.arr_inj c _ _ w
theorem atExit1_of_ne (c : Dev nD) (b : Ref sig .tc) (hb : ∀ w, Pipeline.arrRef spec1 w ≠ b) :
    atExit1 m c (Proc.devRef .tc b) = atExit0 m c (Proc.devRef .tc b) := by
  unfold atExit1; exact Pipeline.withArrays_of_ne spec1 c _ _ b hb
abbrev atExit1V : (c : Dev nD) → (b : Ref sig .tc) → Buf (Elt F) ((c : Thread nD τ).loc b) := fun c b => atExit1 m c b
theorem hF1 (c : Dev nD) (w : Fin cfg1.W) : (dat1 (atExit0V m) c).arrAt w cfg1.N = atExit1V m c (Pipeline.arrRef spec1 w) :=
  (atExit1_arr m c w).symm
theorem hrest1 (c : Dev nD) : ∀ b, b ∉ Finset.univ.image (Pipeline.arrRef spec1) → atExit1V m c b = atExit0V m c b :=
  fun b hb => atExit1_of_ne m c b fun w e => hb (Finset.mem_image.mpr ⟨w, Finset.mem_univ _, e⟩)

/-! ## The host stretch writes no argument -/

theorem hostOps0_fresh : (hostOps0 : List (HloOp τ sig (Elt F))).Forall fun op => op.fresh = ∅ := by
  simp only [List.Forall]; repeat' constructor
/-- The references the host stretch writes. -/
abbrev hostWrites : List (Ref sig .tc) := [main_v0, main_v1, main_v2, main_cst, main_v3, main_v4, main_v5]
theorem hostOps0_writes : (hostOps0 : List (HloOp τ sig (Elt F))).Forall fun op => op.writes ⊆ (hostWrites.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]
     exact List.mem_map_of_mem (by decide))

/-- Argument 0 reaches the end as launched: no host operation writes it and no region's write-backs touch it. -/
theorem atExit1_main_arg0 (c : Dev nD) : atExit1 m c (Proc.devRef .tc main_arg0) = m ((c : Thread nD τ).loc main_arg0) :=
  calc atExit1 m c (Proc.devRef .tc main_arg0)
    _ = atExit0 m c (Proc.devRef .tc main_arg0) := atExit1_of_ne m c main_arg0 (by decide)
    _ = atEntry m c (Proc.devRef .tc main_arg0) := atExit0_of_ne m c main_arg0 (by decide)
    _ = atLaunch m c (Proc.devRef .tc main_arg0) := StableHlo.after_of_writes_sub hostOps0 _ hostOps0_writes (by decide)
    _ = m ((c : Thread nD τ).loc main_arg0) := rfl

/-- Argument 1 reaches the end as launched: no host operation writes it and no region's write-backs touch it. -/
theorem atExit1_main_arg1 (c : Dev nD) : atExit1 m c (Proc.devRef .tc main_arg1) = m ((c : Thread nD τ).loc main_arg1) :=
  calc atExit1 m c (Proc.devRef .tc main_arg1)
    _ = atExit0 m c (Proc.devRef .tc main_arg1) := atExit1_of_ne m c main_arg1 (by decide)
    _ = atEntry m c (Proc.devRef .tc main_arg1) := atExit0_of_ne m c main_arg1 (by decide)
    _ = atLaunch m c (Proc.devRef .tc main_arg1) := StableHlo.after_of_writes_sub hostOps0 _ hostOps0_writes (by decide)
    _ = m ((c : Thread nD τ).loc main_arg1) := rfl

/-- Argument 2 reaches the end as launched: no host operation writes it and no region's write-backs touch it. -/
theorem atExit1_main_arg2 (c : Dev nD) : atExit1 m c (Proc.devRef .tc main_arg2) = m ((c : Thread nD τ).loc main_arg2) :=
  calc atExit1 m c (Proc.devRef .tc main_arg2)
    _ = atExit0 m c (Proc.devRef .tc main_arg2) := (atExit1_arr m c 0).trans (((dat1 (atExit0V m) c).arrAt_in 0 rfl _).trans (A_eq1 (atExit0V m) c 0))
    _ = atEntry m c (Proc.devRef .tc main_arg2) := atExit0_of_ne m c main_arg2 (by decide)
    _ = atLaunch m c (Proc.devRef .tc main_arg2) := StableHlo.after_of_writes_sub hostOps0 _ hostOps0_writes (by decide)
    _ = m ((c : Thread nD τ).loc main_arg2) := rfl

/-- Argument 3 reaches the end as launched: no host operation writes it and no region's write-backs touch it. -/
theorem atExit1_main_arg3 (c : Dev nD) : atExit1 m c (Proc.devRef .tc main_arg3) = m ((c : Thread nD τ).loc main_arg3) :=
  calc atExit1 m c (Proc.devRef .tc main_arg3)
    _ = atExit0 m c (Proc.devRef .tc main_arg3) := atExit1_of_ne m c main_arg3 (by decide)
    _ = atEntry m c (Proc.devRef .tc main_arg3) := (atExit0_arr m c 0).trans (((dat0 (atEntryV m) c).arrAt_in 0 rfl _).trans (A_eq0 (atEntryV m) c 0))
    _ = atLaunch m c (Proc.devRef .tc main_arg3) := StableHlo.after_of_writes_sub hostOps0 _ hostOps0_writes (by decide)
    _ = m ((c : Thread nD τ).loc main_arg3) := rfl

/-- Argument 4 reaches the end as launched: no host operation writes it and no region's write-backs touch it. -/
theorem atExit1_main_arg4 (c : Dev nD) : atExit1 m c (Proc.devRef .tc main_arg4) = m ((c : Thread nD τ).loc main_arg4) :=
  calc atExit1 m c (Proc.devRef .tc main_arg4)
    _ = atExit0 m c (Proc.devRef .tc main_arg4) := atExit1_of_ne m c main_arg4 (by decide)
    _ = atEntry m c (Proc.devRef .tc main_arg4) := atExit0_of_ne m c main_arg4 (by decide)
    _ = atLaunch m c (Proc.devRef .tc main_arg4) := StableHlo.after_of_writes_sub hostOps0 _ hostOps0_writes (by decide)
    _ = m ((c : Thread nD τ).loc main_arg4) := rfl

/-- Argument 5 reaches the end as launched: no host operation writes it and no region's write-backs touch it. -/
theorem atExit1_main_arg5 (c : Dev nD) : atExit1 m c (Proc.devRef .tc main_arg5) = m ((c : Thread nD τ).loc main_arg5) :=
  calc atExit1 m c (Proc.devRef .tc main_arg5)
    _ = atExit0 m c (Proc.devRef .tc main_arg5) := atExit1_of_ne m c main_arg5 (by decide)
    _ = atEntry m c (Proc.devRef .tc main_arg5) := atExit0_of_ne m c main_arg5 (by decide)
    _ = atLaunch m c (Proc.devRef .tc main_arg5) := StableHlo.after_of_writes_sub hostOps0 _ hostOps0_writes (by decide)
    _ = m ((c : Thread nD τ).loc main_arg5) := rfl

/-- Argument 6 reaches the end as launched: no host operation writes it and no region's write-backs touch it. -/
theorem atExit1_main_arg6 (c : Dev nD) : atExit1 m c (Proc.devRef .tc main_arg6) = m ((c : Thread nD τ).loc main_arg6) :=
  calc atExit1 m c (Proc.devRef .tc main_arg6)
    _ = atExit0 m c (Proc.devRef .tc main_arg6) := atExit1_of_ne m c main_arg6 (by decide)
    _ = atEntry m c (Proc.devRef .tc main_arg6) := atExit0_of_ne m c main_arg6 (by decide)
    _ = atLaunch m c (Proc.devRef .tc main_arg6) := StableHlo.after_of_writes_sub hostOps0 _ hostOps0_writes (by decide)
    _ = m ((c : Thread nD τ).loc main_arg6) := rfl

/-- The result's buffer after the run is what the second region's write-backs leave in its output array. -/
theorem atExit1_result (c : Dev nD) : atExit1 m c (Proc.devRef .tc main_v7) = (dat1 (atExit0V m) c).arrAt 3 cfg1.N :=
  atExit1_arr m c 3

/-! ## The proof data family, the riding state, the segments -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (atEntryV m) c
  | ⟨1, _⟩ => fun c => dat1 (atExit0V m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- The host stretch as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atEnd (c : Dev nD) : sProp 𝕄 := iprop(StableHlo.held (c : Thread nD τ) (Pipeline.ucRefs τ sig) (atExit1 m c) ∗ ∃ r, prngReg c r)

set_option backward.isDefEq.respectTransparency.types false in
/-- Region 0 as a segment: entered with every unscoped buffer at the contents before it, left with them at the
    contents after it. Its arrays are split out of the unscoped buffers and put back at what the write-backs leave;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atEntryV m) c).loose
  hwaits := Pipeline.hwaits_of_owed_zero _ _ _ _ L lv 0 fun _ _ => rfl
  pre c := iprop(StableHlo.held (c : Thread nD τ) (Pipeline.ucRefs τ sig) (atEntry m c) ∗ riding c)
  post c := iprop(StableHlo.held (c : Thread nD τ) (Pipeline.ucRefs τ sig) (atExit0 m c) ∗ riding c)
  X c := iprop(∃ r, prngReg c r)
  Y c := iprop(∃ r, prngReg c r)
  Z c := Pipeline.unscopedRest (Ix := Unit) (Name := ℕ) (U := UR sig nD τ) (Lvl := ℕ) spec0 c (atEntryV m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atEntryV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (atEntryV m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (atEntryV m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atEntryV m c) (atExit0V m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers and put back at what the write-backs leave;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atExit0V m) c).loose
  hwaits := Pipeline.hwaits_of_owed_zero _ _ _ _ L lv 1 fun _ _ => rfl
  pre c := iprop(StableHlo.held (c : Thread nD τ) (Pipeline.ucRefs τ sig) (atExit0 m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atExit0V m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atExit0V m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (atExit0V m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (atExit0V m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atExit0V m c) (atExit1V m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hostSeg m), .region (reg0 m), .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters, every weakly fair execution of @main terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atExit1 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c)) (Tₙ := atEnd m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atExit1 m c b)
    (hfin := fun c s' => by
      iintro ⟨⟨Hh, -⟩, HSI⟩
      unfold StableHlo.held
      imodintro
      iapply (pointsTo_read_all (Pipeline.ucRefs τ sig) (fun b => (((c : Thread nD τ)).1, b)) (atExit1 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (atExit1_main_arg0 m c),
    (h c _ (mem_uc main_arg1 (by decide))).trans (atExit1_main_arg1 m c),
    (h c _ (mem_uc main_arg2 (by decide))).trans (atExit1_main_arg2 m c),
    (h c _ (mem_uc main_arg3 (by decide))).trans (atExit1_main_arg3 m c),
    (h c _ (mem_uc main_arg4 (by decide))).trans (atExit1_main_arg4 m c),
    (h c _ (mem_uc main_arg5 (by decide))).trans (atExit1_main_arg5 m c),
    (h c _ (mem_uc main_arg6 (by decide))).trans (atExit1_main_arg6 m c)⟩) (run_all m ρ)

/-- The run with the result named: the result's buffer ends at what the second region's write-backs leave, every
    argument as launched. -/
theorem run_result : θ_run defs (onTc (τ := τ) (main (F := F))) ⟨m, fun _ => 0, ρ⟩ (fun r => ∀ c : Dev nD,
      r.2.mem ((c.tc : Thread nD τ).loc main_v7) = (dat1 (atExit0V m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (atExit1_result m c),
    (h c _ (mem_uc main_arg0 (by decide))).trans (atExit1_main_arg0 m c),
    (h c _ (mem_uc main_arg1 (by decide))).trans (atExit1_main_arg1 m c),
    (h c _ (mem_uc main_arg2 (by decide))).trans (atExit1_main_arg2 m c),
    (h c _ (mem_uc main_arg3 (by decide))).trans (atExit1_main_arg3 m c),
    (h c _ (mem_uc main_arg4 (by decide))).trans (atExit1_main_arg4 m c),
    (h c _ (mem_uc main_arg5 (by decide))).trans (atExit1_main_arg5 m c),
    (h c _ (mem_uc main_arg6 (by decide))).trans (atExit1_main_arg6 m c)⟩) (run_all m ρ)

end Cert.Kernel.Hand
end
-- ==== Proof.Body0.lean ====
import proofs.«108723_j47047071760998_2_alg».proof.Proof.Gen.KernelIdeal.Launch
import proofs.«108723_j47047071760998_2_alg».proof.Proof.Gen.KernelIdeal.Skeleton
import proofs.«108723_j47047071760998_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The first kernel's body, point by point

One grid point (i, k) of the first kernel multiplies the (i, k) tile of the left matrix by rows
`2048·k … 2048·k + 2047` of the resident right operand and adds the product to an accumulator kept in a scratch
buffer: the accumulator starts from zero at `k = 0`, and at the last `k` the accumulated tile, each row times that
row's scale, is stored into the output tile. The three theorems below are the body's triple in the three control
cases (first `k`, a middle `k`, last `k`), with what the scratch buffer and the output tile hold afterwards
stated over the body's named arithmetic. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's first branch is taken: the point is the first along the contraction axis. -/
abbrev first0 (i : grid0.Coords) : Prop := (Scalar.cmpi .ne (Scalar.extui (Scalar.cmpi .eq (BitVec.ofNat 32 (i 1).val) 0#32)) 0#32) = 1#1
/-- The body's second branch is taken: the point is the last along the contraction axis. -/
abbrev last0 (i : grid0.Coords) : Prop := k0_cond2 i = 1#1

/-- The rows of the resident right operand that point `i` multiplies by. -/
abbrev rowsAt0 (i : grid0.Coords) : Rect S8192x128 := Rect.unit (s := S8192x128) (k0_off1 i) S2048x128.size (k0_off1_inb i)

theorem zero2 : (![0, 0] : Fin 2 → ℕ) = fun _ => 0 := by funext a; fin_cases a <;> rfl

/-- The accumulator after a first point: the tile product added to the zero tile. -/
def accFirst0 (x0 : Vec F S1024x2048 .f32) (xb : Vec F S8192x128 .f32) (i : grid0.Coords) : Vec F S1024x128 .f32 :=
  k0_pay2 x0 (View.ld xb (rowsAt0 i)) (k0_pay1 (F := F))
/-- The accumulator after a later point: the tile product added to what the point before left. -/
def accNext0 (x0 : Vec F S1024x2048 .f32) (xb : Vec F S8192x128 .f32) (i : grid0.Coords) (xs : Vec F S1024x128 .f32) : Vec F S1024x128 .f32 :=
  k0_pay2 x0 (View.ld xb (rowsAt0 i)) xs
/-- The output tile a last point stores: the accumulated tile, each row times its scale. -/
def outLast0 (acc : Vec F S1024x128 .f32) (xv : Vec F S1024x1 .f32) : Vec F S1024x128 .f32 := k0_pay3 acc xv

set_option maxHeartbeats 1000000 in
/-- A middle point: the inputs and the output tile are left as found, the scratch ends at `accNext0`. -/
theorem body0_mid (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : ¬first0 i) (hc1 : ¬last0 i)
    (x0 : Vec F S1024x2048 .f32) (xb : Vec F S8192x128 .f32) (xv : Vec F S1024x1 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accNext0 x0 xb i xs)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

set_option maxHeartbeats 1000000 in
/-- A first point: the scratch, whatever it held, ends at `accFirst0`; the inputs and the output tile are left as found. -/
theorem body0_first (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : first0 i) (hc1 : ¬last0 i)
    (x0 : Vec F S1024x2048 .f32) (xb : Vec F S8192x128 .f32) (xv : Vec F S1024x1 .f32) (xo : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ (∃ d, owns (c : Thread nD τ) arg6 fullShare d)
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accFirst0 x0 xb i)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, View.ld_unit_zero (S := S1024x2048) zero2, View.ld_unit_zero (S := S1024x128) zero2, View.readCov_unit_zero (S := S1024x128) _ zero2]
  rfl

set_option maxHeartbeats 1000000 in
/-- A last point: the scratch ends at `accNext0` and the output tile, whatever it held, at `outLast0` of that and the scale column. -/
theorem body0_last (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole)
    (hc0 : ¬first0 i) (hc1 : last0 i)
    (x0 : Vec F S1024x2048 .f32) (xb : Vec F S8192x128 .f32) (xv : Vec F S1024x1 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ (∃ d, owns (c : Thread nD τ) arg5 fullShare d) ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare (outLast0 (accNext0 x0 xb i xs) xv) ∗ owns (c : Thread nD τ) arg6 fullShare (accNext0 x0 xb i xs)) -∗ K ⟨⟩))
      ⊢ wp frame (wpE (defs₀ (F := F)) Variants.none c none) E (cc0__matmul_scale_kernel i arg2 harg2 arg3 harg3 arg4 harg4 arg5 harg5 arg6 harg6) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S1024x128_S1024x128_0_0 y⟩), View.canon_cons_unit_zero zero2]
    simp only [View.readAt_eq_ld, hf0, hf1, hf2, hfs, View.ld_unit_zero (S := S1024x2048) zero2, View.ld_unit_zero (S := S1024x128) zero2, View.ld_unit_zero (S := S1024x1) zero2, View.readCov_unit_zero (S := S1024x128) _ zero2]
    rfl
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

end Cert.KernelIdeal.Hand
end
-- ==== Proof.Region0.lean ====
import proofs.«108723_j47047071760998_2_alg».proof.Proof.Body0

set_option maxRecDepth 16384

noncomputable section

/-! # The first kernel over its grid

The grid is 8 row tiles by 4 contraction tiles, the contraction axis innermost: point `t` is row tile `t / 4`,
contraction tile `t % 4`. The scratch accumulator after point `t` is the sum of the tile products of row tile
`t / 4` over contraction tiles `0 … t % 4` (`accAt0`, by recursion on the point: restarted at `t % 4 = 0`,
continued otherwise), and at `t % 4 = 3` the output tile is that accumulator scaled row by row. This module
states those contents, the region's invariant that keeps the scratch at `accAt0` between points, the region's
proof data over them, and the body's obligation at every point from the three triples of the body. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not
    fetched the block index has not moved since the point before. -/
theorem before_in0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, fetched there or not: where it is not
    fetched the block index has not moved since the point before. -/
theorem before_in0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, fetched there or not: where it is not
    fetched the block index has not moved since the point before. -/
theorem before_in0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The control cases over the grid -/

/-- The first branch is taken exactly at the points with contraction tile 0. -/
theorem first0_iff : ∀ t : Fin cfg0.N, first0 (grid0.coords t) ↔ t.val % 4 = 0 :=
  (by decide +kernel : ∀ t : Fin grid0.N, first0 (grid0.coords t) ↔ t.val % 4 = 0)
/-- The second branch is taken exactly at the points with contraction tile 3. -/
theorem last0_iff : ∀ t : Fin cfg0.N, last0 (grid0.coords t) ↔ t.val % 4 = 3 :=
  (by decide +kernel : ∀ t : Fin grid0.N, last0 (grid0.coords t) ↔ t.val % 4 = 3)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction tile nothing is stored into the output tile, and it is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-! ## What the scratch and the output tile hold after each point -/

/-- The kernel's scratch accumulator, as a memref. -/
abbrev scr0 : Memref sig .tc .vmem S1024x128 .f32 := Memref.whole cc0_scratch0

/-- The accumulator after point `n`: restarted from zero at contraction tile 0, continued from the point before otherwise. -/
def accAt0 (c : Dev nD) : (n : ℕ) → n < cfg0.N → Vec F S1024x128 .f32
  | 0, hn => accFirst0 (blk0 V c 0 ⟨0, hn⟩) (blk0 V c 1 ⟨0, hn⟩) (grid0.coords ⟨0, hn⟩)
  | n + 1, hn =>
    if (n + 1) % 4 = 0 then accFirst0 (blk0 V c 0 ⟨n + 1, hn⟩) (blk0 V c 1 ⟨n + 1, hn⟩) (grid0.coords ⟨n + 1, hn⟩)
    else accNext0 (blk0 V c 0 ⟨n + 1, hn⟩) (blk0 V c 1 ⟨n + 1, hn⟩) (grid0.coords ⟨n + 1, hn⟩) (accAt0 c n (Nat.lt_of_succ_lt hn))

theorem accAt0_first (c : Dev nD) (t : Fin cfg0.N) (h : t.val % 4 = 0) :
    accAt0 V c t.val t.isLt = accFirst0 (blk0 V c 0 t) (blk0 V c 1 t) (grid0.coords t) := by
  obtain ⟨n, hn⟩ := t
  cases n with
  | zero => rfl
  | succ n => exact if_pos h

theorem accAt0_next (c : Dev nD) (t : Fin cfg0.N) (h : ¬t.val % 4 = 0) :
    accAt0 V c t.val t.isLt = accNext0 (blk0 V c 0 t) (blk0 V c 1 t) (grid0.coords t)
      (accAt0 V c (t.val - 1) (Nat.lt_of_le_of_lt (Nat.sub_le _ _) t.isLt)) := by
  obtain ⟨n, hn⟩ := t
  cases n with
  | zero => exact absurd (Nat.zero_mod _) h
  | succ n => exact if_neg h

/-- What a last point stores into the output tile (consulted only where the tile is written back). -/
def outAt0 (c : Dev nD) (t : Fin cfg0.N) : Vec F S1024x128 .f32 := outLast0 (accAt0 V c t.val t.isLt) (blk0 V c 2 t)

/-! ## The region's invariant -/

/-- The core's other scoped buffers that no window of this region stages: the second region's. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch accumulator named. -/
theorem PhiA0_eq (c : Dev nD) :
    (Pipeline.ΦA spec0 c : sProp 𝕄) = iprop(((∃ d, owns (c : Thread nD τ) scr0 fullShare d) ∗ others0 c) ∗ (∃ r, prngReg c r)) := by
  unfold Pipeline.ΦA others0; rw [scopedRest0_eq]; simp only [scr0, owns_whole]; rfl

/-- Before point `n`: before the first point the scratch holds anything; afterwards what the point before left. -/
def Inv0 (c : Dev nD) : (n : ℕ) → n ≤ cfg0.N → sProp 𝕄
  | 0, _ => Pipeline.ΦA spec0 c
  | n + 1, hn => iprop((owns (c : Thread nD τ) scr0 fullShare (accAt0 V c n hn) ∗ others0 c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop((owns (c : Thread nD τ) scr0 fullShare (accAt0 V c n hn) ∗ others0 c) ∗ (∃ r, prngReg c r)) := rfl
theorem Inv0_pos (c : Dev nD) (n : ℕ) (h : n ≤ cfg0.N) (hz : n ≠ 0) :
    Inv0 V c n h = iprop((owns (c : Thread nD τ) scr0 fullShare (accAt0 V c (n - 1) (by omega)) ∗ others0 c) ∗ (∃ r, prngReg c r)) := by
  cases n with
  | zero => exact absurd rfl hz
  | succ n => rfl

/-! ## The region's proof data -/

/-- The arrays as the region finds them; after the body each input's buffer at its block and the output's at
    `outAt0`; the invariant `Inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outAt0 V c t
  Φ t := Inv0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Inv0_castSucc (c : Dev nD) (t : Fin cfg0.N) : (dat0 V c).Φ t.castSucc = Inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = blk0 V c 0 t :=
  before_in0_0 V (dat0 V c) (A_eq0 V c 0) (after0_0 V c) t d
theorem before0_1 (c : Dev nD) (t : Fin cfg0.N) (d) : (dat0 V c).before 1 t d = blk0 V c 1 t :=
  before_in0_1 V (dat0 V c) (A_eq0 V c 1) (after0_1 V c) t d
theorem before0_2 (c : Dev nD) (t : Fin cfg0.N) (d) : (dat0 V c).before 2 t d = blk0 V c 2 t :=
  before_in0_2 V (dat0 V c) (A_eq0 V c 2) (after0_2 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]

set_option maxHeartbeats 4000000 in
/-- The body at any point: the inputs' buffers hold their blocks; the point's contraction tile says which of the
    three triples applies; the invariant hands the body the scratch at what the point before left (anything at
    the very first point) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2]
  have hN : t.val < 32 := lt_of_lt_of_eq t.isLt (show cfg0.N = 32 from N_0)
  by_cases h0 : t.val % 4 = 0
  · have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl)]
    rw [accAt0_first V c t h0]
    by_cases hz : t.val = 0
    · rw [Inv0_castSucc V c t, Inv0_zero V c _ _ hz, PhiA0_eq]
      iintro ⟨⟨⟨HS, Hoth⟩, Hg⟩, Ho, ⟨%d0, H0⟩, ⟨%d1, H1⟩, ⟨%d2, H2⟩, ⟨%d3, H3⟩⟩
      iapply (body0_first c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_first c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬first0 (grid0.coords t) := fun h => h0 ((first0_iff t).mp h)
    have hz : t.val ≠ 0 := fun e => h0 (by rw [e])
    rw [accAt0_next V c t h0]
    by_cases h1 : t.val % 4 = 3
    · have hl : last0 (grid0.coords t) := (last0_iff t).mpr h1
      rw [show (dat0 V c).leavesExact 3 t = owns (c : Thread nD τ) (st0_3 t) fullShare ((dat0 V c).after 3 t) from by
        unfold Dat.leavesExact; rw [live0_3 t hl], after0_3]
      unfold outAt0
      rw [accAt0_next V c t h0]
      rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_last c (grid0.coords t) _ _ _ _ _ _ _ _ _ _ hf hl (blk0 V c 0 t) (blk0 V c 1 t) (blk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬last0 (grid0.coords t) := fun h => h1 ((last0_iff t).mp h)
      rw [Dat.leavesExact_idle (dat0 V c) 3 t (idle0_3 t hl) (noFlush0_3 t hl)]
      rw [Inv0_castSucc V c t, Inv0_pos V c _ _ hz]
      iintro ⟨⟨⟨HS, Hoth⟩, Hg⟩, Ho, ⟨%d0, H0⟩, ⟨%d1, H1⟩, ⟨%d2, H2⟩, ⟨%d3, H3⟩⟩
      iapply (body0_mid c (grid0.coords t) _ _ _ _ _ _ _ _ _ _ hf hl (blk0 V c 0 t) (blk0 V c 1 t) (blk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.KernelIdeal.Hand
end
-- ==== Proof.Body1.lean ====
import proofs.«108723_j47047071760998_2_alg».proof.Proof.Body0

set_option maxRecDepth 16384

noncomputable section

/-! # The second kernel's body, point by point

The second kernel has the first one's structure: one grid point (i, k) multiplies the (i, k) tile of the left matrix
by rows `2048·k … 2048·k + 2047` of the resident right operand and adds the product to a scratch accumulator
started from zero at `k = 0`; at the last `k` the accumulated tile plus the bias row, repeated down the rows, is
stored into the output tile. The three theorems are the body's triple in the three control cases. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's first branch is taken: the point is the first along the contraction axis. -/
abbrev first1 (i : grid1.Coords) : Prop := (Scalar.cmpi .ne (Scalar.extui (Scalar.cmpi .eq (BitVec.ofNat 32 (i 1).val) 0#32)) 0#32) = 1#1
/-- The body's second branch is taken: the point is the last along the contraction axis. -/
abbrev last1 (i : grid1.Coords) : Prop := k1_cond2 i = 1#1

/-- The rows of the resident right operand that point `i` multiplies by. -/
abbrev rowsAt1 (i : grid1.Coords) : Rect S8192x128 := Rect.unit (s := S8192x128) (k1_off1 i) S2048x128.size (k1_off1_inb i)

/-- The accumulator after a first point: the tile product added to the zero tile. -/
def accFirst1 (x0 : Vec F S1024x2048 .f32) (xb : Vec F S8192x128 .f32) (i : grid1.Coords) : Vec F S1024x128 .f32 :=
  k1_pay2 x0 (View.ld xb (rowsAt1 i)) (k1_pay1 (F := F))
/-- The accumulator after a later point: the tile product added to what the point before left. -/
def accNext1 (x0 : Vec F S1024x2048 .f32) (xb : Vec F S8192x128 .f32) (i : grid1.Coords) (xs : Vec F S1024x128 .f32) : Vec F S1024x128 .f32 :=
  k1_pay2 x0 (View.ld xb (rowsAt1 i)) xs
/-- The output tile a last point stores: the accumulated tile plus the bias row, repeated down the rows. -/
def outLast1 (acc : Vec F S1024x128 .f32) (xv : Vec F S1x128 .f32) : Vec F S1024x128 .f32 := k1_pay3 acc xv

set_option maxHeartbeats 1000000 in
/-- A middle point: the inputs and the output tile are left as found, the scratch ends at `accNext1`. -/
theorem body1_mid (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : ¬first1 i) (hc1 : ¬last1 i)
    (x0 : Vec F S1024x2048 .f32) (xb : Vec F S8192x128 .f32) (xv : Vec F S1x128 .f32) (xo : Vec F S1024x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accNext1 x0 xb i xs)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

set_option maxHeartbeats 1000000 in
/-- A first point: the scratch, whatever it held, ends at `accFirst1`; the inputs and the output tile are left as found. -/
theorem body1_first (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : first1 i) (hc1 : ¬last1 i)
    (x0 : Vec F S1024x2048 .f32) (xb : Vec F S8192x128 .f32) (xv : Vec F S1x128 .f32) (xo : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ owns (c : Thread nD τ) arg5 fullShare xo ∗ (∃ d, owns (c : Thread nD τ) arg6 fullShare d)
        ∗ (iprop(owns (c : Thread nD τ) arg2 fullShare x0 ∗ owns (c : Thread nD τ) arg3 fullShare xb ∗ owns (c : Thread nD τ) arg4 fullShare xv ∗ owns (c : Thread nD τ) arg5 fullShare xo ∗ owns (c : Thread nD τ) arg6 fullShare (accFirst1 x0 xb i)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, View.ld_unit_zero (S := S1024x2048) zero2, View.ld_unit_zero (S := S1024x128) zero2, View.readCov_unit_zero (S := S1024x128) _ zero2]
  rfl

set_option maxHeartbeats 1000000 in
/-- A last point: the scratch ends at `accNext1` and the output tile, whatever it held, at `outLast1` of that and the bias row. -/
theorem body1_last (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)
    (hc0 : ¬first1 i) (hc1 : last1 i)
    (x0 : Vec F S1024x2048 .f32) (xb : Vec F S8192x128 .f32) (xv : Vec F S1x128 .f32) (xs : Vec F S1024x128 .f32)
    (E : Set ℕ) (K : PUnit → sProp 𝕄) :
    iprop(owns (c : Thread nD τ) arg2 fullShare x0 ∗ owns (c : Thread nD τ) arg3 fullShare xb ∗ owns (c : Thread nD τ) arg4 fullShare xv ∗ (∃ d, owns (c : Thread nD τ) arg5 fullShare d) ∗ owns (c : Thread nD τ) arg6 fullShare xs
        ∗ (iprop(owns (c : Thread nD τ) arg2 fullShare x0 ∗ owns (c : Thread nD τ) arg3 fullShare xb ∗ owns (c : Thread nD τ) arg4 fullShare xv ∗ owns (c : Thread nD τ) arg5 fullShare (outLast1 (accNext1 x0 xb i xs) xv) ∗ owns (c : Thread nD τ) arg6 fullShare (accNext1 x0 xb i xs)) -∗ K ⟨⟩))
      ⊢ wp frame (wpE (defs₀ (F := F)) Variants.none c none) E (cc1__matmul_bias_kernel i arg2 harg2 arg3 harg3 arg4 harg4 arg5 harg5 arg6 harg6) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_run_names
    rw [View.read_writes_eq_canon _ _ _ (fun y => ⟨_, List.mem_cons.mpr (Or.inl rfl), View.mem_set_unit_zero zero2 inb_S1024x128_S1024x128_0_0 y⟩), View.canon_cons_unit_zero zero2]
    simp only [View.readAt_eq_ld, hf0, hf1, hf2, hfs, View.ld_unit_zero (S := S1024x2048) zero2, View.ld_unit_zero (S := S1024x128) zero2, View.ld_unit_zero (S := S1x128) zero2, View.readCov_unit_zero (S := S1024x128) _ zero2]
    rfl
  iexists _; isplitr
  swap; · iexact HS
  ipureintro
  sl_unfold_run_names
  rw [View.read_writes_eq_canon _ _ _ (fun y => ⟨_, List.mem_cons.mpr (Or.inl rfl), View.mem_set_unit_zero zero2 inb_S1024x128_S1024x128_0_0 y⟩), View.canon_cons_unit_zero zero2]
  simp only [View.readAt_eq_ld, hf0, hf1, hfs, View.ld_unit_zero (S := S1024x2048) zero2, View.ld_unit_zero (S := S1024x128) zero2]
  rfl

end Cert.KernelIdeal.Hand
end
-- ==== Proof.Region1.lean ====
import proofs.«108723_j47047071760998_2_alg».proof.Proof.Body1

set_option maxRecDepth 16384

noncomputable section

/-! # The second kernel over its grid

The same 8 by 4 grid as the first kernel's, the contraction axis innermost: point `t` is row tile `t / 4`,
contraction tile `t % 4`. The scratch accumulator after point `t` is the sum of the tile products of row tile
`t / 4` over contraction tiles `0 … t % 4` (`accAt1`), and at `t % 4 = 3` the output tile is that accumulator
plus the bias row. This module states those contents, the invariant that keeps the scratch at `accAt1` between
points, the region's proof data, and the body's obligation at every point. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not
    fetched the block index has not moved since the point before. -/
theorem before_in1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, fetched there or not: where it is not
    fetched the block index has not moved since the point before. -/
theorem before_in1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, fetched there or not: where it is not
    fetched the block index has not moved since the point before. -/
theorem before_in1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The control cases over the grid -/

/-- The first branch is taken exactly at the points with contraction tile 0. -/
theorem first1_iff : ∀ t : Fin cfg1.N, first1 (grid1.coords t) ↔ t.val % 4 = 0 :=
  (by decide +kernel : ∀ t : Fin grid1.N, first1 (grid1.coords t) ↔ t.val % 4 = 0)
/-- The second branch is taken exactly at the points with contraction tile 3. -/
theorem last1_iff : ∀ t : Fin cfg1.N, last1 (grid1.coords t) ↔ t.val % 4 = 3 :=
  (by decide +kernel : ∀ t : Fin grid1.N, last1 (grid1.coords t) ↔ t.val % 4 = 3)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction tile nothing is stored into the output tile, and it is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## What the scratch and the output tile hold after each point -/

/-- The kernel's scratch accumulator, as a memref. -/
abbrev scr1 : Memref sig .tc .vmem S1024x128 .f32 := Memref.whole cc1_scratch0

/-- The accumulator after point `n`: restarted from zero at contraction tile 0, continued from the point before otherwise. -/
def accAt1 (c : Dev nD) : (n : ℕ) → n < cfg1.N → Vec F S1024x128 .f32
  | 0, hn => accFirst1 (blk1 V c 0 ⟨0, hn⟩) (blk1 V c 1 ⟨0, hn⟩) (grid1.coords ⟨0, hn⟩)
  | n + 1, hn =>
    if (n + 1) % 4 = 0 then accFirst1 (blk1 V c 0 ⟨n + 1, hn⟩) (blk1 V c 1 ⟨n + 1, hn⟩) (grid1.coords ⟨n + 1, hn⟩)
    else accNext1 (blk1 V c 0 ⟨n + 1, hn⟩) (blk1 V c 1 ⟨n + 1, hn⟩) (grid1.coords ⟨n + 1, hn⟩) (accAt1 c n (Nat.lt_of_succ_lt hn))

theorem accAt1_first (c : Dev nD) (t : Fin cfg1.N) (h : t.val % 4 = 0) :
    accAt1 V c t.val t.isLt = accFirst1 (blk1 V c 0 t) (blk1 V c 1 t) (grid1.coords t) := by
  obtain ⟨n, hn⟩ := t
  cases n with
  | zero => rfl
  | succ n => exact if_pos h

theorem accAt1_next (c : Dev nD) (t : Fin cfg1.N) (h : ¬t.val % 4 = 0) :
    accAt1 V c t.val t.isLt = accNext1 (blk1 V c 0 t) (blk1 V c 1 t) (grid1.coords t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- What a last point stores into the output tile (consulted only where the tile is written back). -/
def outAt1 (c : Dev nD) (t : Fin cfg1.N) : Vec F S1024x128 .f32 := outLast1 (accAt1 V c t.val t.isLt) (blk1 V c 2 t)

/-! ## The region's invariant -/

/-- The core's scoped buffers that no window of this region stages, the first region's ahead of this region's scratch
    accumulator, whose state is the parameter `X`. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The class invariant with the scratch accumulator named. -/
theorem PhiA1_eq (c : Dev nD) :
    (Pipeline.ΦA spec1 c : sProp 𝕄) = iprop(others1 c iprop(∃ d, owns (c : Thread nD τ) scr1 fullShare d) ∗ (∃ r, prngReg c r)) := by
  unfold Pipeline.ΦA others1; rw [scopedRest1_eq]; simp only [scr1, owns_whole]; rfl

/-- Before point `n`: before the first point the scratch holds anything; afterwards what the point before left. -/
def Inv1 (c : Dev nD) : (n : ℕ) → n ≤ cfg1.N → sProp 𝕄
  | 0, _ => Pipeline.ΦA spec1 c
  | n + 1, hn => iprop(others1 c (owns (c : Thread nD τ) scr1 fullShare (accAt1 V c n hn)) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(others1 c (owns (c : Thread nD τ) scr1 fullShare (accAt1 V c n hn)) ∗ (∃ r, prngReg c r)) := rfl
theorem Inv1_pos (c : Dev nD) (n : ℕ) (h : n ≤ cfg1.N) (hz : n ≠ 0) :
    Inv1 V c n h = iprop(others1 c (owns (c : Thread nD τ) scr1 fullShare (accAt1 V c (n - 1) (by omega))) ∗ (∃ r, prngReg c r)) := by
  cases n with
  | zero => exact absurd rfl hz
  | succ n => rfl

/-! ## The region's proof data -/

/-- The arrays as the region finds them; after the body each input's buffer at its block and the output's at
    `outAt1`; the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Inv1_castSucc (c : Dev nD) (t : Fin cfg1.N) : (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = blk1 V c 0 t :=
  before_in1_0 V (dat1 V c) (A_eq1 V c 0) (after1_0 V c) t d
theorem before1_1 (c : Dev nD) (t : Fin cfg1.N) (d) : (dat1 V c).before 1 t d = blk1 V c 1 t :=
  before_in1_1 V (dat1 V c) (A_eq1 V c 1) (after1_1 V c) t d
theorem before1_2 (c : Dev nD) (t : Fin cfg1.N) (d) : (dat1 V c).before 2 t d = blk1 V c 2 t :=
  before_in1_2 V (dat1 V c) (A_eq1 V c 2) (after1_2 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (st1_0 t) fullShare (blk1 V c 0 t) := by
  unfold Dat.leavesExact; rw [live1_0 t, after1_0]
theorem leaves1_1 (c : Dev nD) (t : Fin cfg1.N) : (dat1 V c).leavesExact 1 t = owns (c : Thread nD τ) (st1_1 t) fullShare (blk1 V c 1 t) := by
  unfold Dat.leavesExact; rw [live1_1 t, after1_1]
theorem leaves1_2 (c : Dev nD) (t : Fin cfg1.N) : (dat1 V c).leavesExact 2 t = owns (c : Thread nD τ) (st1_2 t) fullShare (blk1 V c 2 t) := by
  unfold Dat.leavesExact; rw [live1_2 t, after1_2]

set_option maxHeartbeats 4000000 in
/-- The body at any point: the inputs' buffers hold their blocks; the point's contraction tile says which of the
    three triples applies; the invariant hands the body the scratch at what the point before left (anything at
    the very first point) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2]
  have hN : t.val < 32 := lt_of_lt_of_eq t.isLt (show cfg1.N = 32 from N_1)
  by_cases h0 : t.val % 4 = 0
  · have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl)]
    rw [accAt1_first V c t h0]
    by_cases hz : t.val = 0
    · rw [Inv1_castSucc V c t, Inv1_zero V c _ _ hz, PhiA1_eq]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_first c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3
    · rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_first c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3
  · have hf : ¬first1 (grid1.coords t) := fun h => h0 ((first1_iff t).mp h)
    have hz : t.val ≠ 0 := fun e => h0 (by rw [e])
    rw [accAt1_next V c t h0]
    by_cases h1 : t.val % 4 = 3
    · have hl : last1 (grid1.coords t) := (last1_iff t).mpr h1
      rw [show (dat1 V c).leavesExact 3 t = owns (c : Thread nD τ) (st1_3 t) fullShare ((dat1 V c).after 3 t) from by
        unfold Dat.leavesExact; rw [live1_3 t hl], after1_3]
      unfold outAt1
      rw [accAt1_next V c t h0]
      rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_last c (grid1.coords t) _ _ _ _ _ _ _ _ _ _ hf hl (blk1 V c 0 t) (blk1 V c 1 t) (blk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexact H3
    · have hl : ¬last1 (grid1.coords t) := fun h => h1 ((last1_iff t).mp h)
      rw [Dat.leavesExact_idle (dat1 V c) 3 t (idle1_3 t hl) (noFlush1_3 t hl)]
      rw [Inv1_castSucc V c t, Inv1_pos V c _ _ hz]
      unfold others1
      iintro ⟨⟨⟨Ha, Hb, Hc, Hd, He, Hf, Hh, Hi, HS⟩, Hg⟩, Ho, ⟨%d0, H0⟩, ⟨%d1, H1⟩, ⟨%d2, H2⟩, ⟨%d3, H3⟩⟩
      iapply (body1_mid c (grid1.coords t) _ _ _ _ _ _ _ _ _ _ hf hl (blk1 V c 0 t) (blk1 V c 1 t) (blk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He Hf Hh Hi HS Hg]
      · isplitl [Ha Hb Hc Hd He Hf Hh Hi HS]
        · isplitl [Ha]; · iexact Ha
          isplitl [Hb]; · iexact Hb
          isplitl [Hc]; · iexact Hc
          isplitl [Hd]; · iexact Hd
          isplitl [He]; · iexact He
          isplitl [Hf]; · iexact Hf
          isplitl [Hh]; · iexact Hh
          isplitl [Hi]; · iexact Hi
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 32 := N_1; omega), PhiA1_eq]
  unfold others1
  iintro ⟨⟨Ha, Hb, Hc, Hd, He, Hf, Hh, Hi, HS⟩, Hg⟩
  isplitl [Ha Hb Hc Hd He Hf Hh Hi HS]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    isplitl [Hi]; · iexact Hi
    iexists _; iexact HS
  iexact Hg

end Cert.KernelIdeal.Hand
end
-- ==== Proof.Run.lean ====
import proofs.«108723_j47047071760998_2_alg».proof.Proof.Region0
import proofs.«108723_j47047071760998_2_alg».proof.Proof.Region1

set_option maxRecDepth 16384

noncomputable section

/-! # The whole run

@main is a stretch of host operations (the small product `x·W`, the scale vector, two reshapes) followed by the
two kernel regions, the second reading the first one's output. The buffers' contents at each boundary are a fold
from the launch memory: after the host stretch, the operations' results; after a region, its arrays at what its
write-backs leave and every other buffer as before. The run theorem says that every weakly fair execution
terminates, faulting nowhere, with every unscoped buffer at the last boundary's contents; read at an argument that
is the launch memory, read at the result it is what the second region's write-backs leave. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev atLaunch : Dev nD → Valuation τ sig (Elt F) := fun c b => m ((c : Dev nD), b)
/-- After the host stretch: the first region's entry. -/
abbrev atEntry : Dev nD → Valuation τ sig (Elt F) := fun c => StableHlo.after hostOps0 (atLaunch m c)
/-- The same, read at the TensorCore's references. -/
abbrev atEntryV : (c : Dev nD) → (b : Ref sig .tc) → Buf (Elt F) ((c : Thread nD τ).loc b) := fun c b => atEntry m c b
/-- After the first region: its arrays at what its write-backs leave, every other buffer as before. -/
def atExit0 (c : Dev nD) : Valuation τ sig (Elt F) :=
  Pipeline.withArrays spec0 c (atEntry m c) fun w => (dat0 (atEntryV m) c).arrAt w cfg0.N
theorem atExit0_arr (c : Dev nD) (w : Fin cfg0.W) :
    atExit0 m c (Proc.devRef .tc (Pipeline.arrRef spec0 w)) = (dat0 (atEntryV m) c).arrAt w cfg0.N := by
  unfold atExit0; exact Pipeline.withArrays_arr spec0 launch0.win.arr_inj c _ _ w
theorem atExit0_of_ne (c : Dev nD) (b : Ref sig .tc) (hb : ∀ w, Pipeline.arrRef spec0 w ≠ b) :
    atExit0 m c (Proc.devRef .tc b) = atEntry m c (Proc.devRef .tc b) := by
  unfold atExit0; exact Pipeline.withArrays_of_ne spec0 c _ _ b hb
abbrev atExit0V : (c : Dev nD) → (b : Ref sig .tc) → Buf (Elt F) ((c : Thread nD τ).loc b) := fun c b => atExit0 m c b
theorem hF0 (c : Dev nD) (w : Fin cfg0.W) : (dat0 (atEntryV m) c).arrAt w cfg0.N = atExit0V m c (Pipeline.arrRef spec0 w) :=
  (atExit0_arr m c w).symm
theorem hrest0 (c : Dev nD) : ∀ b, b ∉ Finset.univ.image (Pipeline.arrRef spec0) → atExit0V m c b = atEntryV m c b :=
  fun b hb => atExit0_of_ne m c b fun w e => hb (Finset.mem_image.mpr ⟨w, Finset.mem_univ _, e⟩)

/-- After the second region, entered at the first one's exit contents. -/
def atExit1 (c : Dev nD) : Valuation τ sig (Elt F) :=
  Pipeline.withArrays spec1 c (atExit0 m c) fun w => (dat1 (atExit0V m) c).arrAt w cfg1.N
theorem atExit1_arr (c : Dev nD) (w : Fin cfg1.W) :
    atExit1 m c (Proc.devRef .tc (Pipeline.arrRef spec1 w)) = (dat1 (atExit0V m) c).arrAt w cfg1.N := by
  unfold atExit1; exact Pipeline.withArrays_arr spec1 launch1.win.arr_inj c _ _ w
theorem atExit1_of_ne (c : Dev nD) (b : Ref sig .tc) (hb : ∀ w, Pipeline.arrRef spec1 w ≠ b) :
    atExit1 m c (Proc.devRef .tc b) = atExit0 m c (Proc.devRef .tc b) := by
  unfold atExit1; exact Pipeline.withArrays_of_ne spec1 c _ _ b hb
abbrev atExit1V : (c : Dev nD) → (b : Ref sig .tc) → Buf (Elt F) ((c : Thread nD τ).loc b) := fun c b => atExit1 m c b
theorem hF1 (c : Dev nD) (w : Fin cfg1.W) : (dat1 (atExit0V m) c).arrAt w cfg1.N = atExit1V m c (Pipeline.arrRef spec1 w) :=
  (atExit1_arr m c w).symm
theorem hrest1 (c : Dev nD) : ∀ b, b ∉ Finset.univ.image (Pipeline.arrRef spec1) → atExit1V m c b = atExit0V m c b :=
  fun b hb => atExit1_of_ne m c b fun w e => hb (Finset.mem_image.mpr ⟨w, Finset.mem_univ _, e⟩)

/-! ## The host stretch writes no argument -/

theorem hostOps0_fresh : (hostOps0 : List (HloOp τ sig (Elt F))).Forall fun op => op.fresh = ∅ := by
  simp only [List.Forall]; repeat' constructor
/-- The references the host stretch writes. -/
abbrev hostWrites : List (Ref sig .tc) := [main_v0, main_v1, main_v2, main_cst, main_v3, main_v4, main_v5]
theorem hostOps0_writes : (hostOps0 : List (HloOp τ sig (Elt F))).Forall fun op => op.writes ⊆ (hostWrites.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]
     exact List.mem_map_of_mem (by decide))

/-- Argument 0 reaches the end as launched: no host operation writes it and no region's write-backs touch it. -/
theorem atExit1_main_arg0 (c : Dev nD) : atExit1 m c (Proc.devRef .tc main_arg0) = m ((c : Thread nD τ).loc main_arg0) :=
  calc atExit1 m c (Proc.devRef .tc main_arg0)
    _ = atExit0 m c (Proc.devRef .tc main_arg0) := atExit1_of_ne m c main_arg0 (by decide)
    _ = atEntry m c (Proc.devRef .tc main_arg0) := atExit0_of_ne m c main_arg0 (by decide)
    _ = atLaunch m c (Proc.devRef .tc main_arg0) := StableHlo.after_of_writes_sub hostOps0 _ hostOps0_writes (by decide)
    _ = m ((c : Thread nD τ).loc main_arg0) := rfl

/-- Argument 1 reaches the end as launched: no host operation writes it and no region's write-backs touch it. -/
theorem atExit1_main_arg1 (c : Dev nD) : atExit1 m c (Proc.devRef .tc main_arg1) = m ((c : Thread nD τ).loc main_arg1) :=
  calc atExit1 m c (Proc.devRef .tc main_arg1)
    _ = atExit0 m c (Proc.devRef .tc main_arg1) := atExit1_of_ne m c main_arg1 (by decide)
    _ = atEntry m c (Proc.devRef .tc main_arg1) := atExit0_of_ne m c main_arg1 (by decide)
    _ = atLaunch m c (Proc.devRef .tc main_arg1) := StableHlo.after_of_writes_sub hostOps0 _ hostOps0_writes (by decide)
    _ = m ((c : Thread nD τ).loc main_arg1) := rfl

/-- Argument 2 reaches the end as launched: no host operation writes it and no region's write-backs touch it. -/
theorem atExit1_main_arg2 (c : Dev nD) : atExit1 m c (Proc.devRef .tc main_arg2) = m ((c : Thread nD τ).loc main_arg2) :=
  calc atExit1 m c (Proc.devRef .tc main_arg2)
    _ = atExit0 m c (Proc.devRef .tc main_arg2) := (atExit1_arr m c 0).trans (((dat1 (atExit0V m) c).arrAt_in 0 rfl _).trans (A_eq1 (atExit0V m) c 0))
    _ = atEntry m c (Proc.devRef .tc main_arg2) := atExit0_of_ne m c main_arg2 (by decide)
    _ = atLaunch m c (Proc.devRef .tc main_arg2) := StableHlo.after_of_writes_sub hostOps0 _ hostOps0_writes (by decide)
    _ = m ((c : Thread nD τ).loc main_arg2) := rfl

/-- Argument 3 reaches the end as launched: no host operation writes it and no region's write-backs touch it. -/
theorem atExit1_main_arg3 (c : Dev nD) : atExit1 m c (Proc.devRef .tc main_arg3) = m ((c : Thread nD τ).loc main_arg3) :=
  calc atExit1 m c (Proc.devRef .tc main_arg3)
    _ = atExit0 m c (Proc.devRef .tc main_arg3) := atExit1_of_ne m c main_arg3 (by decide)
    _ = atEntry m c (Proc.devRef .tc main_arg3) := (atExit0_arr m c 0).trans (((dat0 (atEntryV m) c).arrAt_in 0 rfl _).trans (A_eq0 (atEntryV m) c 0))
    _ = atLaunch m c (Proc.devRef .tc main_arg3) := StableHlo.after_of_writes_sub hostOps0 _ hostOps0_writes (by decide)
    _ = m ((c : Thread nD τ).loc main_arg3) := rfl

/-- Argument 4 reaches the end as launched: no host operation writes it and no region's write-backs touch it. -/
theorem atExit1_main_arg4 (c : Dev nD) : atExit1 m c (Proc.devRef .tc main_arg4) = m ((c : Thread nD τ).loc main_arg4) :=
  calc atExit1 m c (Proc.devRef .tc main_arg4)
    _ = atExit0 m c (Proc.devRef .tc main_arg4) := atExit1_of_ne m c main_arg4 (by decide)
    _ = atEntry m c (Proc.devRef .tc main_arg4) := atExit0_of_ne m c main_arg4 (by decide)
    _ = atLaunch m c (Proc.devRef .tc main_arg4) := StableHlo.after_of_writes_sub hostOps0 _ hostOps0_writes (by decide)
    _ = m ((c : Thread nD τ).loc main_arg4) := rfl

/-- Argument 5 reaches the end as launched: no host operation writes it and no region's write-backs touch it. -/
theorem atExit1_main_arg5 (c : Dev nD) : atExit1 m c (Proc.devRef .tc main_arg5) = m ((c : Thread nD τ).loc main_arg5) :=
  calc atExit1 m c (Proc.devRef .tc main_arg5)
    _ = atExit0 m c (Proc.devRef .tc main_arg5) := atExit1_of_ne m c main_arg5 (by decide)
    _ = atEntry m c (Proc.devRef .tc main_arg5) := atExit0_of_ne m c main_arg5 (by decide)
    _ = atLaunch m c (Proc.devRef .tc main_arg5) := StableHlo.after_of_writes_sub hostOps0 _ hostOps0_writes (by decide)
    _ = m ((c : Thread nD τ).loc main_arg5) := rfl

/-- Argument 6 reaches the end as launched: no host operation writes it and no region's write-backs touch it. -/
theorem atExit1_main_arg6 (c : Dev nD) : atExit1 m c (Proc.devRef .tc main_arg6) = m ((c : Thread nD τ).loc main_arg6) :=
  calc atExit1 m c (Proc.devRef .tc main_arg6)
    _ = atExit0 m c (Proc.devRef .tc main_arg6) := atExit1_of_ne m c main_arg6 (by decide)
    _ = atEntry m c (Proc.devRef .tc main_arg6) := atExit0_of_ne m c main_arg6 (by decide)
    _ = atLaunch m c (Proc.devRef .tc main_arg6) := StableHlo.after_of_writes_sub hostOps0 _ hostOps0_writes (by decide)
    _ = m ((c : Thread nD τ).loc main_arg6) := rfl

/-- The result's buffer after the run is what the second region's write-backs leave in its output array. -/
theorem atExit1_result (c : Dev nD) : atExit1 m c (Proc.devRef .tc main_v7) = (dat1 (atExit0V m) c).arrAt 3 cfg1.N :=
  atExit1_arr m c 3

/-! ## The proof data family, the riding state, the segments -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (atEntryV m) c
  | ⟨1, _⟩ => fun c => dat1 (atExit0V m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- The host stretch as a segment from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev atEnd (c : Dev nD) : sProp 𝕄 := iprop(StableHlo.held (c : Thread nD τ) (Pipeline.ucRefs τ sig) (atExit1 m c) ∗ ∃ r, prngReg c r)

set_option backward.isDefEq.respectTransparency.types false in
/-- Region 0 as a segment: entered with every unscoped buffer at the contents before it, left with them at the
    contents after it. Its arrays are split out of the unscoped buffers and put back at what the write-backs leave;
    the generator register goes into the region's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atEntryV m) c).loose
  hwaits := Pipeline.hwaits_of_owed_zero _ _ _ _ L lv 0 fun _ _ => rfl
  pre c := iprop(StableHlo.held (c : Thread nD τ) (Pipeline.ucRefs τ sig) (atEntry m c) ∗ riding c)
  post c := iprop(StableHlo.held (c : Thread nD τ) (Pipeline.ucRefs τ sig) (atExit0 m c) ∗ riding c)
  X c := iprop(∃ r, prngReg c r)
  Y c := iprop(∃ r, prngReg c r)
  Z c := Pipeline.unscopedRest (Ix := Unit) (Name := ℕ) (U := UR sig nD τ) (Lvl := ℕ) spec0 c (atEntryV m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atEntryV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (atEntryV m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (atEntryV m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atEntryV m c) (atExit0V m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers and put back at what the write-backs leave;
    the generator register goes into the region's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atExit0V m) c).loose
  hwaits := Pipeline.hwaits_of_owed_zero _ _ _ _ L lv 1 fun _ _ => rfl
  pre c := iprop(StableHlo.held (c : Thread nD τ) (Pipeline.ucRefs τ sig) (atExit0 m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atExit0V m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atExit0V m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (atExit0V m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (atExit0V m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atExit0V m c) (atExit1V m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (hostSeg m), .region (reg0 m), .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters, every weakly fair execution of @main terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atExit1 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c)) (Tₙ := atEnd m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atExit1 m c b)
    (hfin := fun c s' => by
      iintro ⟨⟨Hh, -⟩, HSI⟩
      unfold StableHlo.held
      imodintro
      iapply (pointsTo_read_all (Pipeline.ucRefs τ sig) (fun b => (((c : Thread nD τ)).1, b)) (atExit1 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (atExit1_main_arg0 m c),
    (h c _ (mem_uc main_arg1 (by decide))).trans (atExit1_main_arg1 m c),
    (h c _ (mem_uc main_arg2 (by decide))).trans (atExit1_main_arg2 m c),
    (h c _ (mem_uc main_arg3 (by decide))).trans (atExit1_main_arg3 m c),
    (h c _ (mem_uc main_arg4 (by decide))).trans (atExit1_main_arg4 m c),
    (h c _ (mem_uc main_arg5 (by decide))).trans (atExit1_main_arg5 m c),
    (h c _ (mem_uc main_arg6 (by decide))).trans (atExit1_main_arg6 m c)⟩) (run_all m ρ)

/-- The run with the result named: the result's buffer ends at what the second region's write-backs leave, every
    argument as launched. -/
theorem run_result : θ_run defs (onTc (τ := τ) (main (F := F))) ⟨m, fun _ => 0, ρ⟩ (fun r => ∀ c : Dev nD,
      r.2.mem ((c.tc : Thread nD τ).loc main_v7) = (dat1 (atExit0V m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (atExit1_result m c),
    (h c _ (mem_uc main_arg0 (by decide))).trans (atExit1_main_arg0 m c),
    (h c _ (mem_uc main_arg1 (by decide))).trans (atExit1_main_arg1 m c),
    (h c _ (mem_uc main_arg2 (by decide))).trans (atExit1_main_arg2 m c),
    (h c _ (mem_uc main_arg3 (by decide))).trans (atExit1_main_arg3 m c),
    (h c _ (mem_uc main_arg4 (by decide))).trans (atExit1_main_arg4 m c),
    (h c _ (mem_uc main_arg5 (by decide))).trans (atExit1_main_arg5 m c),
    (h c _ (mem_uc main_arg6 (by decide))).trans (atExit1_main_arg6 m c)⟩) (run_all m ρ)

end Cert.KernelIdeal.Hand
end
-- ==== Proof.LibKeepdims.lean ====
/-
  Layout operations around a KEPT UNIT AXIS, read at an index, and sums over index sets with unit axes.

  A reduction with `keepdims=True` leaves a unit axis where the reduced axis was: a vector of length `a` is recast as an
  `a × 1` column (`shapeCast_a_a1_apply`), and such a column is broadcast along its unit axis to an `a × b` array
  (`broadcastTo_a1_ab_apply`). A sum over the indices of a shape whose axes are all of size one but one is the sum over
  that axis's coordinates (`sum_idx1`, `sum_idx3_11a`, `sum_idx3_1a1`, `sum_idx3_a11`): the indices are in bijection
  with the coordinates.
-/
import Idealize.ShloMosaic.Lib.ValueIdx
import Idealize.ShloMosaic.Lib.ValueLayout
import Idealize.ShloMosaic.Lib.Pipeline.Value

namespace Idealize.ShloMosaic.Keepdims

open Idealize.ShloMosaic.ValueIdx

variable {α : Type}

/-- A vector recast as a column: entry `(i, 0)` of the column is entry `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis: entry `(p, c)` of the result is entry `(p, 0)` of the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  refine (Function.Bijective.sum_comp (e := fun a : Fin n => (ix1 a : (⟨1, ![n]⟩ : Shape).Idx)) ⟨?_, ?_⟩ f).symm
  · intro a a' h; exact congrFun h 0
  · intro j; exact ⟨j 0, (eq_ix1 j).symm⟩

/-- A sum over the indices of a `1 × 1 × n` array is the sum over the last coordinate. -/
theorem sum_idx3_11a {M : Type*} [AddCommMonoid M] {n : ℕ} (f : (⟨3, ![1, 1, n]⟩ : Shape).Idx → M) :
    ∑ i, f i = ∑ a : Fin n, f (ix3 (0 : Fin 1) (0 : Fin 1) a) := by
  refine (Function.Bijective.sum_comp
    (e := fun a : Fin n => (ix3 (0 : Fin 1) (0 : Fin 1) a : (⟨3, ![1, 1, n]⟩ : Shape).Idx)) ⟨?_, ?_⟩ f).symm
  · intro a a' h; exact congrFun h 2
  · intro j
    have h0 : (j 0).val = 0 := by have : (j 0).val < 1 := (j 0).isLt; omega
    have h1 : (j 1).val = 0 := by have : (j 1).val < 1 := (j 1).isLt; omega
    exact ⟨j 2, funext fun d => match d with
      | ⟨0, _⟩ => Fin.ext h0.symm
      | ⟨1, _⟩ => Fin.ext h1.symm
      | ⟨2, _⟩ => rfl⟩

/-- A sum over the indices of a `1 × n × 1` array is the sum over the middle coordinate. -/
theorem sum_idx3_1a1 {M : Type*} [AddCommMonoid M] {n : ℕ} (f : (⟨3, ![1, n, 1]⟩ : Shape).Idx → M) :
    ∑ i, f i = ∑ a : Fin n, f (ix3 (0 : Fin 1) a (0 : Fin 1)) := by
  refine (Function.Bijective.sum_comp
    (e := fun a : Fin n => (ix3 (0 : Fin 1) a (0 : Fin 1) : (⟨3, ![1, n, 1]⟩ : Shape).Idx)) ⟨?_, ?_⟩ f).symm
  · intro a a' h; exact congrFun h 1
  · intro j
    have h0 : (j 0).val = 0 := by have : (j 0).val < 1 := (j 0).isLt; omega
    have h2 : (j 2).val = 0 := by have : (j 2).val < 1 := (j 2).isLt; omega
    exact ⟨j 1, funext fun d => match d with
      | ⟨0, _⟩ => Fin.ext h0.symm
      | ⟨1, _⟩ => rfl
      | ⟨2, _⟩ => Fin.ext h2.symm⟩

/-- A sum over the indices of an `n × 1 × 1` array is the sum over the first coordinate. -/
theorem sum_idx3_a11 {M : Type*} [AddCommMonoid M] {n : ℕ} (f : (⟨3, ![n, 1, 1]⟩ : Shape).Idx → M) :
    ∑ i, f i = ∑ a : Fin n, f (ix3 a (0 : Fin 1) (0 : Fin 1)) := by
  refine (Function.Bijective.sum_comp
    (e := fun a : Fin n => (ix3 a (0 : Fin 1) (0 : Fin 1) : (⟨3, ![n, 1, 1]⟩ : Shape).Idx)) ⟨?_, ?_⟩ f).symm
  · intro a a' h; exact congrFun h 0
  · intro j
    have h1 : (j 1).val = 0 := by have : (j 1).val < 1 := (j 1).isLt; omega
    have h2 : (j 2).val = 0 := by have : (j 2).val < 1 := (j 2).isLt; omega
    exact ⟨j 0, funext fun d => match d with
      | ⟨0, _⟩ => rfl
      | ⟨1, _⟩ => Fin.ext h1.symm
      | ⟨2, _⟩ => Fin.ext h2.symm⟩

end Idealize.ShloMosaic.Keepdims
-- ==== Proof.PayIdeal.lean ====
/-
  The two kernel bodies' arithmetic, read entry by entry on the extended reals.

  Each body keeps a 1024 × 128 running total. Its first stored value is the zero array; its second is the running
  total plus the product of a 1024 × 2048 block of rows of the left operand with a 2048 × 128 block of the right
  operand (the narrowing to bf16 is the identity on extended reals, so the product is the exact sum over the shared
  axis); its third is the finished total times the row's scale (first body) or plus the column's bias (second body).
-/
import proofs.«108723_j47047071760998_2_alg».proof.Proof.Gen.KernelIdeal.Skeleton
import proofs.«108723_j47047071760998_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Math

open Cert.KernelIdeal Cert.KernelIdeal.Gen Idealize.ShloMosaic Idealize.ShloMosaic.ValueIdx

/-- The left operand's index of the block product at output entry `i` and shared coordinate `k`: its row is `i`'s row. -/
theorem lhs_tile_0 (i : S1024x128.Idx) (k : dot_S1024x2048_S2048x128_S1024x128_1_0_0_1_n_n.contr.Idx) :
    (dot_S1024x2048_S2048x128_S1024x128_1_0_0_1_n_n.lhsIdx i k 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

/-- The right operand's index of the block product at output entry `i` and shared coordinate `k`: its column is `i`'s column. -/
theorem rhs_tile_1 (i : S1024x128.Idx) (k : dot_S1024x2048_S2048x128_S1024x128_1_0_0_1_n_n.contr.Idx) :
    (dot_S1024x2048_S2048x128_S1024x128_1_0_0_1_n_n.rhsIdx i k 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- A 1024 × 2048 block times a 2048 × 128 block, accumulated from the zero array: entry (p, q) is the sum over the
    shared axis of the products of row p of the left block with column q of the right block. -/
theorem matmul_tile_apply {φ₁ φ₂ : FTy} (x : FVec Ideal S1024x2048 φ₁) (b : FVec Ideal S2048x128 φ₂) (p : Fin 1024) (q : Fin 128) :
    (matmul dot_S1024x2048_S2048x128_S1024x128_1_0_0_1_n_n none x b (constant S1024x128 .f32 0x00000000#32) : FVec Ideal S1024x128 .f32) (ix2 p q)
      = ∑ j : Fin 2048, x (ix2 p j) * b (ix2 j q) := by
  show FloatOps.matmul dot_S1024x2048_S2048x128_S1024x128_1_0_0_1_n_n none x b (constant S1024x128 .f32 0x00000000#32) (ix2 p q) = _
  rw [Ideal.matmul_constant_zero_apply, ← Equiv.sum_comp (contrEquiv1 dot_S1024x2048_S2048x128_S1024x128_1_0_0_1_n_n 2048 rfl rfl).symm]
  refine Finset.sum_congr rfl fun j _ => ?_
  have hj := contrEquiv1_symm_val dot_S1024x2048_S2048x128_S1024x128_1_0_0_1_n_n 2048 rfl rfl j
  have el : dot_S1024x2048_S2048x128_S1024x128_1_0_0_1_n_n.lhsIdx (ix2 p q) ((contrEquiv1 dot_S1024x2048_S2048x128_S1024x128_1_0_0_1_n_n 2048 rfl rfl).symm j) = ix2 p j :=
    funext fun a => Fin.ext (by
      match a with
      | ⟨0, _⟩ => exact lhs_tile_0 _ _
      | ⟨1, _⟩ => exact (dot_S1024x2048_S2048x128_S1024x128_1_0_0_1_n_n.lhsIdx_val_of_single rfl (ix2 p q) _).trans hj)
  have er : dot_S1024x2048_S2048x128_S1024x128_1_0_0_1_n_n.rhsIdx (ix2 p q) ((contrEquiv1 dot_S1024x2048_S2048x128_S1024x128_1_0_0_1_n_n 2048 rfl rfl).symm j) = ix2 j q :=
    funext fun a => Fin.ext (by
      match a with
      | ⟨0, _⟩ => exact (dot_S1024x2048_S2048x128_S1024x128_1_0_0_1_n_n.rhsIdx_val_of_single rfl (ix2 p q) _).trans hj
      | ⟨1, _⟩ => exact rhs_tile_1 _ _)
  rw [el, er]

/-- The first body's first stored value is the zero array: every entry is the extended real 0. -/
theorem pay1_0 (p : Fin 1024) (q : Fin 128) : k0_pay1 (F := Ideal) (ix2 p q) = 0 := by
  unfold k0_pay1
  rw [shapeCast_self]
  exact Ideal.ofBits_zero_f32

/-- The second body's first stored value is the zero array: every entry is the extended real 0. -/
theorem pay1_1 (p : Fin 1024) (q : Fin 128) : k1_pay1 (F := Ideal) (ix2 p q) = 0 := by
  unfold k1_pay1
  rw [shapeCast_self]
  exact Ideal.ofBits_zero_f32

/-- The first body's accumulation step: entry (p, q) of the new running total is the old one plus the sum over the
    2048 shared coordinates of row p of the left block times column q of the right block. -/
theorem pay2_0 (x : Vec Ideal S1024x2048 .f32) (b : Vec Ideal S2048x128 .f32) (acc : Vec Ideal S1024x128 .f32)
    (p : Fin 1024) (q : Fin 128) :
    k0_pay2 (F := Ideal) x b acc (ix2 p q) = acc (ix2 p q) + ∑ j : Fin 2048, x (ix2 p j) * b (ix2 j q) := by
  unfold k0_pay2
  rw [shapeCast_self, shapeCast_self, addf_apply, matmul_tile_apply]
  rfl

/-- The second body's accumulation step: entry (p, q) of the new running total is the old one plus the sum over the
    2048 shared coordinates of row p of the left block times column q of the right block. -/
theorem pay2_1 (x : Vec Ideal S1024x2048 .f32) (b : Vec Ideal S2048x128 .f32) (acc : Vec Ideal S1024x128 .f32)
    (p : Fin 1024) (q : Fin 128) :
    k1_pay2 (F := Ideal) x b acc (ix2 p q) = acc (ix2 p q) + ∑ j : Fin 2048, x (ix2 p j) * b (ix2 j q) := by
  unfold k1_pay2
  rw [shapeCast_self, shapeCast_self, addf_apply, matmul_tile_apply]
  rfl

/-- The first body's last stored value: entry (p, q) is the finished total there times row p's scale. -/
theorem pay3_0 (s : Vec Ideal S1024x128 .f32) (v : Vec Ideal S1024x1 .f32) (p : Fin 1024) (q : Fin 128) :
    k0_pay3 (F := Ideal) s v (ix2 p q) = s (ix2 p q) * v (ix2 p (0 : Fin 1)) := by
  unfold k0_pay3
  rw [shapeCast_self, mulf_apply, Keepdims.broadcastTo_a1_ab_apply]

/-- The second body's last stored value: entry (p, q) is the finished total there plus column q's bias. -/
theorem pay3_1 (s : Vec Ideal S1024x128 .f32) (v : Vec Ideal S1x128 .f32) (p : Fin 1024) (q : Fin 128) :
    k1_pay3 (F := Ideal) s v (ix2 p q) = s (ix2 p q) + v (ix2 (0 : Fin 1) q) := by
  unfold k1_pay3
  rw [shapeCast_self, addf_apply, broadcastTo_1b_ab_apply]

end Cert.KernelIdeal.Math

end
-- ==== Proof.LibSumTiles.lean ====
/-
  Sums over consecutive indices, cut into tiles.

  A finite sum over the first `T * n` naturals, in any commutative additive monoid, is the sum over the `T` tiles
  `{s * n, …, s * n + n - 1}` of the sum over each tile: the tiles are consecutive and disjoint, and together they are
  the whole range. The proof is an induction on the number of tiles: one more tile appends `n` more consecutive indices.
-/
import Mathlib.Algebra.BigOperators.Fin

namespace Cert.LibSumTiles

open Finset

/-- A sum over the first `T * n` naturals is the sum over `T` consecutive tiles of `n` indices each:
    `∑ k < T * n, f k = ∑ s < T, ∑ j < n, f (s * n + j)`. Both outer sums are over ranges of naturals. -/
theorem sum_range_tiles {β : Type*} [AddCommMonoid β] (T n : ℕ) (f : ℕ → β) :
    ∑ k ∈ range (T * n), f k = ∑ s ∈ range T, ∑ j ∈ range n, f (s * n + j) := by
  induction T with
  | zero => simp
  | succ T ih => rw [sum_range_succ, ← ih, Nat.add_mul, Nat.one_mul, sum_range_add]

/-- A sum over `Fin (T * n)` of a function of the index's value is the sum over `T` tiles of the sum over each
    tile's `n` indices: `∑ k : Fin (T * n), f k = ∑ s < T, ∑ j : Fin n, f (s * n + j)`. -/
theorem sum_tiles {β : Type*} [AddCommMonoid β] (T n : ℕ) (f : ℕ → β) :
    ∑ k : Fin (T * n), f k.val = ∑ s ∈ Finset.range T, ∑ j : Fin n, f (s * n + j.val) := by
  rw [Fin.sum_univ_eq_sum_range f (T * n), sum_range_tiles]
  exact sum_congr rfl fun s _ => (Fin.sum_univ_eq_sum_range (fun j => f (s * n + j)) n).symm

/-- The instance at `8192 = 16 * 512`: a sum over 8192 consecutive indices is the sum over 16 tiles of 512. -/
theorem sum_tiles_8192 {β : Type*} [AddCommMonoid β] (f : ℕ → β) :
    ∑ k : Fin 8192, f k.val = ∑ s ∈ Finset.range 16, ∑ j : Fin 512, f (s * 512 + j.val) :=
  sum_tiles 16 512 f

end Cert.LibSumTiles
-- ==== Proof.Spec.lean ====
/-
  The specification: the result as one function of the seven argument arrays, entry by entry, on the extended reals.

  With x an 8192 × 128 array, W a 128 × 128 array, d and f two 3 × 8192 arrays, Vt and U two 8192 × 8192 arrays and
  bias a vector of length 128:

    xw  l q = ∑ a, x (l, a) * W (a, q)                       (x times W)
    scl j   = ∑ t, (d (t, j) * f (t, j)) * d (t, j)           (the row scale: the sum over the three levels)
    mid j q = (∑ l, Vt (j, l) * xw l q) * scl j              (Vt times xw, each row scaled)
    out r q = (∑ j, U (r, j) * mid j q) + bias q             (U times mid, plus the bias)

  and `specOut` is `out` as a function of an index of the 8192 × 128 result. The arrays are named in the order in which
  the program takes them: x, d, U, Vt, W, f, bias.

  The last statement is the law by which a sum over 8192 consecutive indices is accumulated in four tiles of 2048,
  starting from zero: it holds in any commutative additive monoid, in particular on the extended reals, with no
  finiteness hypothesis.
-/
import Idealize.ShloMosaic.PureOps.Ideal
import Idealize.ShloMosaic.Lib.ValueIdx
import proofs.«108723_j47047071760998_2_alg».proof.Proof.LibSumTiles

noncomputable section

namespace Cert.Spec

open Idealize.ShloMosaic Idealize.ShloMosaic.ValueIdx

/-- x times W: entry (l, q) is the sum over the 128 shared coordinates. -/
def xw (x : (⟨2, ![8192, 128]⟩ : Shape).Idx → EReal) (W : (⟨2, ![128, 128]⟩ : Shape).Idx → EReal)
    (l : Fin 8192) (q : Fin 128) : EReal :=
  ∑ a : Fin 128, x (ix2 l a) * W (ix2 a q)

/-- The scale of row j: the sum over the three levels t of (d (t, j) * f (t, j)) * d (t, j). -/
def scl (d f : (⟨2, ![3, 8192]⟩ : Shape).Idx → EReal) (j : Fin 8192) : EReal :=
  ∑ t : Fin 3, (d (ix2 t j) * f (ix2 t j)) * d (ix2 t j)

/-- Vt times (x times W), each row j multiplied by its scale. -/
def mid (x : (⟨2, ![8192, 128]⟩ : Shape).Idx → EReal) (d : (⟨2, ![3, 8192]⟩ : Shape).Idx → EReal)
    (Vt : (⟨2, ![8192, 8192]⟩ : Shape).Idx → EReal) (W : (⟨2, ![128, 128]⟩ : Shape).Idx → EReal)
    (f : (⟨2, ![3, 8192]⟩ : Shape).Idx → EReal) (j : Fin 8192) (q : Fin 128) : EReal :=
  (∑ l : Fin 8192, Vt (ix2 j l) * xw x W l q) * scl d f j

/-- U times the scaled array, plus the bias of column q. -/
def out (x : (⟨2, ![8192, 128]⟩ : Shape).Idx → EReal) (d : (⟨2, ![3, 8192]⟩ : Shape).Idx → EReal)
    (U Vt : (⟨2, ![8192, 8192]⟩ : Shape).Idx → EReal) (W : (⟨2, ![128, 128]⟩ : Shape).Idx → EReal)
    (f : (⟨2, ![3, 8192]⟩ : Shape).Idx → EReal) (bias : (⟨1, ![128]⟩ : Shape).Idx → EReal)
    (r : Fin 8192) (q : Fin 128) : EReal :=
  (∑ j : Fin 8192, U (ix2 r j) * mid x d Vt W f j q) + bias (ix1 q)

/-- The whole result array: at an index, `out` at the index's row and column. -/
def specOut (x : (⟨2, ![8192, 128]⟩ : Shape).Idx → EReal) (d : (⟨2, ![3, 8192]⟩ : Shape).Idx → EReal)
    (U Vt : (⟨2, ![8192, 8192]⟩ : Shape).Idx → EReal) (W : (⟨2, ![128, 128]⟩ : Shape).Idx → EReal)
    (f : (⟨2, ![3, 8192]⟩ : Shape).Idx → EReal) (bias : (⟨1, ![128]⟩ : Shape).Idx → EReal) :
    (⟨2, ![8192, 128]⟩ : Shape).Idx → EReal :=
  fun i => out x d U Vt W f bias (i 0) (i 1)

/-- The result array at row r and column q. -/
theorem specOut_apply (x : (⟨2, ![8192, 128]⟩ : Shape).Idx → EReal) (d : (⟨2, ![3, 8192]⟩ : Shape).Idx → EReal)
    (U Vt : (⟨2, ![8192, 8192]⟩ : Shape).Idx → EReal) (W : (⟨2, ![128, 128]⟩ : Shape).Idx → EReal)
    (f : (⟨2, ![3, 8192]⟩ : Shape).Idx → EReal) (bias : (⟨1, ![128]⟩ : Shape).Idx → EReal)
    (r : Fin 8192) (q : Fin 128) :
    specOut x d U Vt W f bias (ix2 r q) = out x d U Vt W f bias r q := rfl

/-- Four tiles of 2048 consecutive indices, added one after the other to zero, make the sum over all 8192 indices. -/
theorem tiles4 {β : Type*} [AddCommMonoid β] (g : ℕ → β) :
    (((0 + ∑ j : Fin 2048, g j.val) + ∑ j : Fin 2048, g (2048 + j.val)) + ∑ j : Fin 2048, g (4096 + j.val))
        + ∑ j : Fin 2048, g (6144 + j.val)
      = ∑ l : Fin 8192, g l.val := by
  have h : ∑ l : Fin 8192, g l.val = ∑ s ∈ Finset.range 4, ∑ j : Fin 2048, g (s * 2048 + j.val) :=
    Cert.LibSumTiles.sum_tiles 4 2048 g
  rw [h]
  simp only [Finset.sum_range_succ, Finset.sum_range_zero, Nat.zero_mul, Nat.zero_add, Nat.one_mul]

end Cert.Spec

end
-- ==== Proof.Glue.lean ====
/-
  The accumulated running total of a row of blocks is the whole sum over the shared axis.

  A body starts its running total at zero and adds, at each of the four steps k = 0, 1, 2, 3 along the shared axis, the
  product of a 1024 × 2048 block of the left array with a 2048 × 128 block of the right array. When block k of the left
  array holds, in its row p, the entries 2048 k, …, 2048 k + 2047 of row r of an 8192 × 8192 array A, and block k of
  the right array holds, in its column q, the entries 2048 k, …, 2048 k + 2047 of column q of an 8192 × 128 array B,
  the finished total at (p, q) is ∑ l, A (r, l) * B (l, q): the four tiles are consecutive, disjoint and cover the 8192
  indices, and addition on the extended reals is associative and commutative with 0 neutral. Nothing else is used.
-/
import proofs.«108723_j47047071760998_2_alg».proof.Proof.PayIdeal
import proofs.«108723_j47047071760998_2_alg».proof.Proof.Spec

noncomputable section

namespace Cert.KernelIdeal.Math

open Cert.KernelIdeal Cert.KernelIdeal.Gen Idealize.ShloMosaic Idealize.ShloMosaic.ValueIdx

/-- A sum over 8192 indices is the sum over four tiles k of the sums over the tile's 2048 indices 2048 k + j. -/
theorem sum_four_tiles {β : Type*} [AddCommMonoid β] (G : Fin 8192 → β) :
    ∑ l : Fin 8192, G l = ∑ k : Fin 4, ∑ j : Fin 2048, G ⟨2048 * k.val + j.val, by omega⟩ := by
  let g : ℕ → β := fun n => if h : n < 8192 then G ⟨n, h⟩ else 0
  have hg : ∀ (n : ℕ) (h : n < 8192), g n = G ⟨n, h⟩ := fun n h => dif_pos h
  have h1 : ∑ l : Fin 8192, G l = ∑ l : Fin 8192, g l.val :=
    Finset.sum_congr rfl fun l _ => (hg l.val l.isLt).symm
  have h2 : ∑ l : Fin 8192, g l.val = ∑ s ∈ Finset.range 4, ∑ j : Fin 2048, g (s * 2048 + j.val) :=
    Cert.LibSumTiles.sum_tiles 4 2048 g
  rw [h1, h2, ← Fin.sum_univ_eq_sum_range (fun s => ∑ j : Fin 2048, g (s * 2048 + j.val)) 4]
  refine Finset.sum_congr rfl fun k _ => Finset.sum_congr rfl fun j _ => ?_
  have hlt : k.val * 2048 + j.val < 8192 := by omega
  rw [hg _ hlt]
  exact congrArg G (Fin.ext (by show k.val * 2048 + j.val = 2048 * k.val + j.val; omega))

/-- The first body's finished running total at (p, q), when its four left blocks hold row r of A tile by tile and its
    four right blocks hold column q of B tile by tile, is the whole sum ∑ l, A (r, l) * B (l, q). -/
theorem tile_row0 (A : S8192x8192.Idx → EReal) (B : S8192x128.Idx → EReal)
    (x : Fin 4 → Vec Ideal S1024x2048 .f32) (b : Fin 4 → Vec Ideal S2048x128 .f32)
    (r : Fin 8192) (p : Fin 1024) (q : Fin 128)
    (hx : ∀ (k : Fin 4) (j : Fin 2048), x k (ix2 p j) = A (ix2 r ⟨2048 * k.val + j.val, by omega⟩))
    (hb : ∀ (k : Fin 4) (j : Fin 2048), b k (ix2 j q) = B (ix2 ⟨2048 * k.val + j.val, by omega⟩ q)) :
    k0_pay2 (x 3) (b 3) (k0_pay2 (x 2) (b 2) (k0_pay2 (x 1) (b 1) (k0_pay2 (x 0) (b 0) (k0_pay1 (F := Ideal))))) (ix2 p q)
      = ∑ l : Fin 8192, A (ix2 r l) * B (ix2 l q) := by
  rw [pay2_0, pay2_0, pay2_0, pay2_0, pay1_0]
  refine Eq.trans ?_ (sum_four_tiles (fun l => A (ix2 r l) * B (ix2 l q))).symm
  rw [Fin.sum_univ_four, zero_add]
  simp only [hx, hb]

/-- The second body's finished running total at (p, q), under the same reading of its blocks, is the same whole sum. -/
theorem tile_row1 (A : S8192x8192.Idx → EReal) (B : S8192x128.Idx → EReal)
    (x : Fin 4 → Vec Ideal S1024x2048 .f32) (b : Fin 4 → Vec Ideal S2048x128 .f32)
    (r : Fin 8192) (p : Fin 1024) (q : Fin 128)
    (hx : ∀ (k : Fin 4) (j : Fin 2048), x k (ix2 p j) = A (ix2 r ⟨2048 * k.val + j.val, by omega⟩))
    (hb : ∀ (k : Fin 4) (j : Fin 2048), b k (ix2 j q) = B (ix2 ⟨2048 * k.val + j.val, by omega⟩ q)) :
    k1_pay2 (x 3) (b 3) (k1_pay2 (x 2) (b 2) (k1_pay2 (x 1) (b 1) (k1_pay2 (x 0) (b 0) (k1_pay1 (F := Ideal))))) (ix2 p q)
      = ∑ l : Fin 8192, A (ix2 r l) * B (ix2 l q) := by
  rw [pay2_1, pay2_1, pay2_1, pay2_1, pay1_1]
  refine Eq.trans ?_ (sum_four_tiles (fun l => A (ix2 r l) * B (ix2 l q))).symm
  rw [Fin.sum_univ_four, zero_add]
  simp only [hx, hb]

end Cert.KernelIdeal.Math

end
-- ==== Proof.Final0.lean ====
/-
  From blocks to the array: what the first kernel's output array holds after its grid.

  The grid is 8 row tiles by 4 tiles of the shared axis, the shared axis innermost: point 4 a + k is row tile a, shared
  tile k. At point 4 a + k the left block is rows 1024 a … 1024 a + 1023 and columns 2048 k … 2048 k + 2047 of the left
  array A; the right operand is resident, and the body reads its rows 2048 k … 2048 k + 2047; the scale block is rows
  1024 a … of the scale column s; and the output block, written back at k = 3 only, is rows 1024 a … of the output array.
  So the accumulator after point 4 a + 3 is four accumulation steps from zero over the four tiles, which is the whole sum
  ∑ l, A (r, l) * B (l, q) at row r = 1024 a + p; the block written back is that times s (r, 0); and the eight
  written-back blocks tile the output array, row r lying in the block of row tile r / 1024. Hence the output array ends
  holding, at (r, q), (∑ l, A (r, l) * B (l, q)) * s (r, 0).
-/
import proofs.«108723_j47047071760998_2_alg».proof.Proof.Region0
import proofs.«108723_j47047071760998_2_alg».proof.Proof.PayIdeal
import proofs.«108723_j47047071760998_2_alg».proof.Proof.Glue
import proofs.«108723_j47047071760998_2_alg».proof.Proof.Spec
import Idealize.ShloMosaic.Lib.Pipeline.Value

set_option maxRecDepth 16384

noncomputable section

namespace Cert.KernelIdeal.Math

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The product array a row of blocks accumulates, scaled row by row: at (r, q) it is (∑ l, A (r, l) * B (l, q)) * s (r, 0). -/
def G0fun (A : S8192x8192.Idx → EReal) (B : S8192x128.Idx → EReal) (s : S8192x1.Idx → EReal) : S8192x128.Idx → EReal :=
  fun i => (∑ l : Fin 8192, A (ix2 (i 0) l) * B (ix2 l (i 1))) * s (ix2 (i 0) (0 : Fin 1))

theorem G0fun_apply (A : S8192x8192.Idx → EReal) (B : S8192x128.Idx → EReal) (s : S8192x1.Idx → EReal) (r : Fin 8192) (q : Fin 128) :
    G0fun A B s (ix2 r q) = (∑ l : Fin 8192, A (ix2 r l) * B (ix2 l q)) * s (ix2 r (0 : Fin 1)) := rfl

/-- What the first region's output array ends holding, as a function of the arrays the region finds. -/
def G0 (c : Dev nD) : Buf (Elt Ideal) ((c : Thread nD τ).loc main_v6) :=
  G0fun (V c main_arg3) (V c main_v0) (V c main_v4)

/-- The finished output tile at (p, q): the whole sum over the shared axis times the row's scale. -/
theorem out_entry0 (A : S8192x8192.Idx → EReal) (B : S8192x128.Idx → EReal) (s : S8192x1.Idx → EReal)
    (x : Fin 4 → Vec Ideal S1024x2048 .f32) (b : Fin 4 → Vec Ideal S2048x128 .f32) (v : Vec Ideal S1024x1 .f32)
    (r : Fin 8192) (p : Fin 1024) (q : Fin 128)
    (hx : ∀ (k : Fin 4) (j : Fin 2048), x k (ix2 p j) = A (ix2 r ⟨2048 * k.val + j.val, by omega⟩))
    (hb : ∀ (k : Fin 4) (j : Fin 2048), b k (ix2 j q) = B (ix2 ⟨2048 * k.val + j.val, by omega⟩ q))
    (hv : v (ix2 p (0 : Fin 1)) = s (ix2 r (0 : Fin 1))) :
    k0_pay3 (k0_pay2 (x 3) (b 3) (k0_pay2 (x 2) (b 2) (k0_pay2 (x 1) (b 1) (k0_pay2 (x 0) (b 0) (k0_pay1 (F := Ideal)))))) v (ix2 p q)
      = G0fun A B s (ix2 r q) := by
  rw [pay3_0, tile_row0 A B x b r p q hx hb, hv, G0fun_apply]

/-- The printed index maps, decided once over the grid. -/
theorem idx_facts0 : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-- The left block at point t holds rows 1024 (t / 4) + p and columns 2048 (t % 4) + j of the left array. -/
theorem blk0_0_at (c : Dev nD) (t : Fin cfg0.N) (p : Fin 1024) (j : Fin 2048) (r l : Fin 8192)
    (hr : r.val = 1024 * (t.val / 4) + p.val) (hl : l.val = 2048 * (t.val % 4) + j.val) :
    (blk0 V c 0 t : S1024x2048.Idx → EReal) (ix2 p j) = (V c main_arg3 : S8192x8192.Idx → EReal) (ix2 r l) := by
  obtain ⟨e0, e1, -⟩ := idx_facts0 t
  show V c main_arg3 (((cfg0.win 0).blk t).view.emb (ix2 p j)) = _
  refine congrArg (V c main_arg3) (funext fun a => Fin.ext ?_)
  match a with
  | ⟨0, _⟩ => show win0_0.index t (0 : Fin 2) * 1024 + 1 * p.val = r.val; omega
  | ⟨1, _⟩ => show win0_0.index t (1 : Fin 2) * 2048 + 1 * j.val = l.val; omega

/-- The rows of the resident right array that point t multiplies by are rows 2048 (t % 4) + j. -/
theorem rows0_at (c : Dev nD) (t : Fin cfg0.N) (j : Fin 2048) (q : Fin 128) (l : Fin 8192)
    (hl : l.val = 2048 * (t.val % 4) + j.val) :
    (View.ld (blk0 V c 1 t) (rowsAt0 (grid0.coords t)) : S2048x128.Idx → EReal) (ix2 j q)
      = (V c main_v0 : S8192x128.Idx → EReal) (ix2 l q) := by
  obtain ⟨e0, e1, e2, e3, e4, e5, e6, e7, e8, e9⟩ := idx_facts0 t
  show V c main_v0 (((cfg0.win 1).blk t).view.emb ((rowsAt0 (grid0.coords t)).idx (ix2 j q))) = _
  refine congrArg (V c main_v0) (funext fun a => Fin.ext ?_)
  match a with
  | ⟨0, _⟩ => show win0_1.index t (0 : Fin 2) * 8192 + 1 * (k0_off1 (grid0.coords t) (0 : Fin 2) + 1 * j.val) = l.val; omega
  | ⟨1, _⟩ => show win0_1.index t (1 : Fin 2) * 128 + 1 * (k0_off1 (grid0.coords t) (1 : Fin 2) + 1 * q.val) = q.val; omega

/-- The scale block at point t holds rows 1024 (t / 4) + p of the scale column. -/
theorem blk0_2_at (c : Dev nD) (t : Fin cfg0.N) (p : Fin 1024) (u : Fin 1) (r : Fin 8192)
    (hr : r.val = 1024 * (t.val / 4) + p.val) :
    (blk0 V c 2 t : S1024x1.Idx → EReal) (ix2 p u) = (V c main_v4 : S8192x1.Idx → EReal) (ix2 r u) := by
  obtain ⟨e0, e1, e2, e3, e4, e5, -⟩ := idx_facts0 t
  show V c main_v4 (((cfg0.win 2).blk t).view.emb (ix2 p u)) = _
  refine congrArg (V c main_v4) (funext fun a => Fin.ext ?_)
  match a with
  | ⟨0, _⟩ => show win0_2.index t (0 : Fin 2) * 1024 + 1 * p.val = r.val; omega
  | ⟨1, _⟩ => show win0_2.index t (1 : Fin 2) * 1 + 1 * u.val = u.val; omega

/-- The output block at point t sits at rows 1024 (t / 4) + p of the output array. -/
theorem out0_emb (t : Fin cfg0.N) (p : Fin 1024) (q : Fin 128) (r : Fin 8192) (hr : r.val = 1024 * (t.val / 4) + p.val) :
    (((cfg0.win 3).blk t).view.emb (ix2 p q) : S8192x128.Idx) = ix2 r q := by
  obtain ⟨e0, e1, e2, e3, e4, e5, e6, e7, -⟩ := idx_facts0 t
  refine funext fun a => Fin.ext ?_
  match a with
  | ⟨0, _⟩ => show win0_3.index t (0 : Fin 2) * 1024 + 1 * p.val = r.val; omega
  | ⟨1, _⟩ => show win0_3.index t (1 : Fin 2) * 128 + 1 * q.val = q.val; omega

/-- Point k of row tile a: the grid's point 4 a + k. -/
abbrev tpt (a : Fin 8) (k : Fin 4) : Fin cfg0.N := ⟨4 * a.val + k.val, by have : cfg0.N = 32 := N_0; omega⟩

/-- The accumulator after the last point of row tile a: four accumulation steps from zero, one per tile of the shared axis. -/
theorem acc_last0 (c : Dev nD) (a : Fin 8) :
    accAt0 V c (tpt a 3).val (tpt a 3).isLt
      = k0_pay2 (blk0 V c 0 (tpt a 3)) (View.ld (blk0 V c 1 (tpt a 3)) (rowsAt0 (grid0.coords (tpt a 3))))
          (k0_pay2 (blk0 V c 0 (tpt a 2)) (View.ld (blk0 V c 1 (tpt a 2)) (rowsAt0 (grid0.coords (tpt a 2))))
            (k0_pay2 (blk0 V c 0 (tpt a 1)) (View.ld (blk0 V c 1 (tpt a 1)) (rowsAt0 (grid0.coords (tpt a 1))))
              (k0_pay2 (blk0 V c 0 (tpt a 0)) (View.ld (blk0 V c 1 (tpt a 0)) (rowsAt0 (grid0.coords (tpt a 0))))
                (k0_pay1 (F := Ideal))))) := by
  have e3 := accAt0_next V c (tpt a 3) (by show ¬(4 * a.val + 3) % 4 = 0; omega)
  have e2 := accAt0_next V c (tpt a 2) (by show ¬(4 * a.val + 2) % 4 = 0; omega)
  have e1 := accAt0_next V c (tpt a 1) (by show ¬(4 * a.val + 1) % 4 = 0; omega)
  have e0 := accAt0_first V c (tpt a 0) (by show (4 * a.val + 0) % 4 = 0; omega)
  exact e3.trans (congrArg (accNext0 _ _ _) (e2.trans (congrArg (accNext0 _ _ _) (e1.trans (congrArg (accNext0 _ _ _) e0)))))

/-- What the last point of row tile a writes back is its block of `G0`. -/
theorem flushed0_at (c : Dev nD) (a : Fin 8) :
    (dat0 V c).flushed 3 (tpt a 3) = ((cfg0.win 3).blk (tpt a 3)).view.read (Elt Ideal) (G0 V c) := by
  show (cfg0.win 3).cut (grid0.coords (tpt a 3)) ((dat0 V c).after 3 (tpt a 3)) = _
  rw [after0_3]
  unfold outAt0 outLast0
  rw [acc_last0 V c a]
  funext y
  obtain ⟨p, q, rfl⟩ : ∃ (p : Fin 1024) (q : Fin 128), y = ix2 p q := ⟨y 0, y 1, eq_ix2 y⟩
  have hr : 1024 * a.val + p.val < 8192 := by omega
  have hxinj : (cfg0.win 3).xinj (grid0.coords (tpt a 3)) (ix2 p q) = ix2 p q :=
    funext fun d => by match d with | ⟨0, _⟩ => rfl | ⟨1, _⟩ => rfl
  show k0_pay3 _ (blk0 V c 2 (tpt a 3)) ((cfg0.win 3).xinj (grid0.coords (tpt a 3)) (ix2 p q))
      = G0 V c (((cfg0.win 3).blk (tpt a 3)).view.emb (ix2 p q))
  rw [hxinj, out0_emb (tpt a 3) p q ⟨1024 * a.val + p.val, hr⟩ (by show 1024 * a.val + p.val = 1024 * ((4 * a.val + 3) / 4) + p.val; omega)]
  exact out_entry0 (V c main_arg3) (V c main_v0) (V c main_v4)
    (fun k => blk0 V c 0 (tpt a k)) (fun k => View.ld (blk0 V c 1 (tpt a k)) (rowsAt0 (grid0.coords (tpt a k)))) (blk0 V c 2 (tpt a 3))
    ⟨1024 * a.val + p.val, hr⟩ p q
    (fun k j => blk0_0_at V c (tpt a k) p j _ _
      (by show 1024 * a.val + p.val = 1024 * ((4 * a.val + k.val) / 4) + p.val; omega)
      (by show 2048 * k.val + j.val = 2048 * ((4 * a.val + k.val) % 4) + j.val; omega))
    (fun k j => rows0_at V c (tpt a k) j q _
      (by show 2048 * k.val + j.val = 2048 * ((4 * a.val + k.val) % 4) + j.val; omega))
    (blk0_2_at V c (tpt a 3) p 0 _ (by show 1024 * a.val + p.val = 1024 * ((4 * a.val + 3) / 4) + p.val; omega))

/-- What every flushing point writes back is its block of `G0`. -/
theorem flushed0_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have hN : t.val < 32 := lt_of_lt_of_eq t.isLt (show cfg0.N = 32 from N_0)
  have ht : t = tpt ⟨t.val / 4, by omega⟩ 3 := Fin.ext (by show t.val = 4 * (t.val / 4) + 3; omega)
  rw [ht]
  exact flushed0_at V c _

/-- Row r of the output array is in the block of the last point of row tile r / 1024. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨a, ha⟩ : ∃ a : Fin 8, a.val = (i 0).val / 1024 := ⟨⟨(i 0).val / 1024, by omega⟩, rfl⟩
  refine ⟨tpt a 3, (flush0_3 _).mpr (by show (4 * a.val + 3) % 4 = 3; omega), ?_⟩
  obtain ⟨e0, e1, e2, e3, e4, e5, e6, e7, -⟩ := idx_facts0 (tpt a 3)
  have e6' : win0_3.index (tpt a 3) (0 : Fin 2) = a.val := by
    rw [e6]; show (4 * a.val + 3) / 4 = a.val; omega
  show i ∈ ((View.whole main_v6).slice (win0_3.rect (tpt a 3))).set
  rw [View.set_slice_whole, Rect.mem_set_unit]
  intro ax
  match ax with
  | ⟨0, _⟩ =>
    show win0_3.index (tpt a 3) (0 : Fin 2) * 1024 ≤ (i 0).val ∧ (i 0).val < win0_3.index (tpt a 3) (0 : Fin 2) * 1024 + 1024
    omega
  | ⟨1, _⟩ =>
    show win0_3.index (tpt a 3) (1 : Fin 2) * 128 ≤ (i 1).val ∧ (i 1).val < win0_3.index (tpt a 3) (1 : Fin 2) * 128 + 128
    omega

/-- The first region's output array ends holding `G0` of the arrays the region finds. -/
theorem final0 (c : Dev nD) : (dat0 V c).arrAt 3 cfg0.N = G0 V c :=
  (dat0 V c).arrAt_eq_of_cover 3 (G0 V c) (flushed0_eq V c) (cover0 c)

/-- The first region's output array at (r, q). -/
theorem final0_apply (c : Dev nD) (r : Fin 8192) (q : Fin 128) :
    ((dat0 V c).arrAt 3 cfg0.N : S8192x128.Idx → EReal) (ix2 r q)
      = G0fun (V c main_arg3) (V c main_v0) (V c main_v4) (ix2 r q) := by
  rw [final0]; rfl

end Cert.KernelIdeal.Math

end
-- ==== Proof.Final1.lean ====
/-
  From blocks to the array: what the second kernel's output array holds after its grid.

  The grid is 8 row tiles by 4 tiles of the shared axis, the shared axis innermost: point 4 a + k is row tile a, shared
  tile k. At point 4 a + k the left block is rows 1024 a … 1024 a + 1023 and columns 2048 k … 2048 k + 2047 of the left
  array A; the right operand is resident, and the body reads its rows 2048 k … 2048 k + 2047; the bias block is the
  whole bias row at every point; and the output block, written back at k = 3 only, is rows 1024 a … of the output array.
  So the accumulator after point 4 a + 3 is four accumulation steps from zero over the four tiles, which is the whole sum
  ∑ l, A (r, l) * B (l, q) at row r = 1024 a + p; the block written back is that plus bias (0, q); and the eight
  written-back blocks tile the output array, row r lying in the block of row tile r / 1024. Hence the output array ends
  holding, at (r, q), (∑ l, A (r, l) * B (l, q)) + bias (0, q).
-/
import proofs.«108723_j47047071760998_2_alg».proof.Proof.Region1
import proofs.«108723_j47047071760998_2_alg».proof.Proof.PayIdeal
import proofs.«108723_j47047071760998_2_alg».proof.Proof.Glue
import proofs.«108723_j47047071760998_2_alg».proof.Proof.Spec
import Idealize.ShloMosaic.Lib.Pipeline.Value

set_option maxRecDepth 16384

noncomputable section

namespace Cert.KernelIdeal.Math

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The product array a row of blocks accumulates, plus the bias row: at (r, q) it is (∑ l, A (r, l) * B (l, q)) + bias (0, q). -/
def G1fun (A : S8192x8192.Idx → EReal) (B : S8192x128.Idx → EReal) (s : S1x128.Idx → EReal) : S8192x128.Idx → EReal :=
  fun i => (∑ l : Fin 8192, A (ix2 (i 0) l) * B (ix2 l (i 1))) + s (ix2 (0 : Fin 1) (i 1))

theorem G1fun_apply (A : S8192x8192.Idx → EReal) (B : S8192x128.Idx → EReal) (s : S1x128.Idx → EReal) (r : Fin 8192) (q : Fin 128) :
    G1fun A B s (ix2 r q) = (∑ l : Fin 8192, A (ix2 r l) * B (ix2 l q)) + s (ix2 (0 : Fin 1) q) := rfl

/-- What the second region's output array ends holding, as a function of the arrays the region finds. -/
def G1 (c : Dev nD) : Buf (Elt Ideal) ((c : Thread nD τ).loc main_v7) :=
  G1fun (V c main_arg2) (V c main_v6) (V c main_v5)

/-- The finished output tile at (p, q): the whole sum over the shared axis plus the column's bias. -/
theorem out_entry1 (A : S8192x8192.Idx → EReal) (B : S8192x128.Idx → EReal) (s : S1x128.Idx → EReal)
    (x : Fin 4 → Vec Ideal S1024x2048 .f32) (b : Fin 4 → Vec Ideal S2048x128 .f32) (v : Vec Ideal S1x128 .f32)
    (r : Fin 8192) (p : Fin 1024) (q : Fin 128)
    (hx : ∀ (k : Fin 4) (j : Fin 2048), x k (ix2 p j) = A (ix2 r ⟨2048 * k.val + j.val, by omega⟩))
    (hb : ∀ (k : Fin 4) (j : Fin 2048), b k (ix2 j q) = B (ix2 ⟨2048 * k.val + j.val, by omega⟩ q))
    (hv : v (ix2 (0 : Fin 1) q) = s (ix2 (0 : Fin 1) q)) :
    k1_pay3 (k1_pay2 (x 3) (b 3) (k1_pay2 (x 2) (b 2) (k1_pay2 (x 1) (b 1) (k1_pay2 (x 0) (b 0) (k1_pay1 (F := Ideal)))))) v (ix2 p q)
      = G1fun A B s (ix2 r q) := by
  rw [pay3_1, tile_row1 A B x b r p q hx hb, hv, G1fun_apply]

/-- The printed index maps, decided once over the grid. -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

/-- The left block at point t holds rows 1024 (t / 4) + p and columns 2048 (t % 4) + j of the left array. -/
theorem blk1_0_at (c : Dev nD) (t : Fin cfg1.N) (p : Fin 1024) (j : Fin 2048) (r l : Fin 8192)
    (hr : r.val = 1024 * (t.val / 4) + p.val) (hl : l.val = 2048 * (t.val % 4) + j.val) :
    (blk1 V c 0 t : S1024x2048.Idx → EReal) (ix2 p j) = (V c main_arg2 : S8192x8192.Idx → EReal) (ix2 r l) := by
  obtain ⟨e0, e1, -⟩ := idx_facts1 t
  show V c main_arg2 (((cfg1.win 0).blk t).view.emb (ix2 p j)) = _
  refine congrArg (V c main_arg2) (funext fun a => Fin.ext ?_)
  match a with
  | ⟨0, _⟩ => show win1_0.index t (0 : Fin 2) * 1024 + 1 * p.val = r.val; omega
  | ⟨1, _⟩ => show win1_0.index t (1 : Fin 2) * 2048 + 1 * j.val = l.val; omega

/-- The rows of the resident right array that point t multiplies by are rows 2048 (t % 4) + j. -/
theorem rows1_at (c : Dev nD) (t : Fin cfg1.N) (j : Fin 2048) (q : Fin 128) (l : Fin 8192)
    (hl : l.val = 2048 * (t.val % 4) + j.val) :
    (View.ld (blk1 V c 1 t) (rowsAt1 (grid1.coords t)) : S2048x128.Idx → EReal) (ix2 j q)
      = (V c main_v6 : S8192x128.Idx → EReal) (ix2 l q) := by
  obtain ⟨e0, e1, e2, e3, e4, e5, e6, e7, e8, e9⟩ := idx_facts1 t
  show V c main_v6 (((cfg1.win 1).blk t).view.emb ((rowsAt1 (grid1.coords t)).idx (ix2 j q))) = _
  refine congrArg (V c main_v6) (funext fun a => Fin.ext ?_)
  match a with
  | ⟨0, _⟩ => show win1_1.index t (0 : Fin 2) * 8192 + 1 * (k1_off1 (grid1.coords t) (0 : Fin 2) + 1 * j.val) = l.val; omega
  | ⟨1, _⟩ => show win1_1.index t (1 : Fin 2) * 128 + 1 * (k1_off1 (grid1.coords t) (1 : Fin 2) + 1 * q.val) = q.val; omega

/-- The bias block at every point is the whole bias row. -/
theorem blk1_2_at (c : Dev nD) (t : Fin cfg1.N) (u : Fin 1) (q : Fin 128) :
    (blk1 V c 2 t : S1x128.Idx → EReal) (ix2 u q) = (V c main_v5 : S1x128.Idx → EReal) (ix2 u q) := by
  obtain ⟨e0, e1, e2, e3, e4, e5, -⟩ := idx_facts1 t
  show V c main_v5 (((cfg1.win 2).blk t).view.emb (ix2 u q)) = _
  refine congrArg (V c main_v5) (funext fun a => Fin.ext ?_)
  match a with
  | ⟨0, _⟩ => show win1_2.index t (0 : Fin 2) * 1 + 1 * u.val = u.val; omega
  | ⟨1, _⟩ => show win1_2.index t (1 : Fin 2) * 128 + 1 * q.val = q.val; omega

/-- The output block at point t sits at rows 1024 (t / 4) + p of the output array. -/
theorem out1_emb (t : Fin cfg1.N) (p : Fin 1024) (q : Fin 128) (r : Fin 8192) (hr : r.val = 1024 * (t.val / 4) + p.val) :
    (((cfg1.win 3).blk t).view.emb (ix2 p q) : S8192x128.Idx) = ix2 r q := by
  obtain ⟨e0, e1, e2, e3, e4, e5, e6, e7, -⟩ := idx_facts1 t
  refine funext fun a => Fin.ext ?_
  match a with
  | ⟨0, _⟩ => show win1_3.index t (0 : Fin 2) * 1024 + 1 * p.val = r.val; omega
  | ⟨1, _⟩ => show win1_3.index t (1 : Fin 2) * 128 + 1 * q.val = q.val; omega

/-- Point k of row tile a: the grid's point 4 a + k. -/
abbrev tpt1 (a : Fin 8) (k : Fin 4) : Fin cfg1.N := ⟨4 * a.val + k.val, by have : cfg1.N = 32 := N_1; omega⟩

/-- The accumulator after the last point of row tile a: four accumulation steps from zero, one per tile of the shared axis. -/
theorem acc_last1 (c : Dev nD) (a : Fin 8) :
    accAt1 V c (tpt1 a 3).val (tpt1 a 3).isLt
      = k1_pay2 (blk1 V c 0 (tpt1 a 3)) (View.ld (blk1 V c 1 (tpt1 a 3)) (rowsAt1 (grid1.coords (tpt1 a 3))))
          (k1_pay2 (blk1 V c 0 (tpt1 a 2)) (View.ld (blk1 V c 1 (tpt1 a 2)) (rowsAt1 (grid1.coords (tpt1 a 2))))
            (k1_pay2 (blk1 V c 0 (tpt1 a 1)) (View.ld (blk1 V c 1 (tpt1 a 1)) (rowsAt1 (grid1.coords (tpt1 a 1))))
              (k1_pay2 (blk1 V c 0 (tpt1 a 0)) (View.ld (blk1 V c 1 (tpt1 a 0)) (rowsAt1 (grid1.coords (tpt1 a 0))))
                (k1_pay1 (F := Ideal))))) := by
  have e3 := accAt1_next V c (tpt1 a 3) (by show ¬(4 * a.val + 3) % 4 = 0; omega)
  have e2 := accAt1_next V c (tpt1 a 2) (by show ¬(4 * a.val + 2) % 4 = 0; omega)
  have e1 := accAt1_next V c (tpt1 a 1) (by show ¬(4 * a.val + 1) % 4 = 0; omega)
  have e0 := accAt1_first V c (tpt1 a 0) (by show (4 * a.val + 0) % 4 = 0; omega)
  exact e3.trans (congrArg (accNext1 _ _ _) (e2.trans (congrArg (accNext1 _ _ _) (e1.trans (congrArg (accNext1 _ _ _) e0)))))

/-- What the last point of row tile a writes back is its block of `G1`. -/
theorem flushed1_at (c : Dev nD) (a : Fin 8) :
    (dat1 V c).flushed 3 (tpt1 a 3) = ((cfg1.win 3).blk (tpt1 a 3)).view.read (Elt Ideal) (G1 V c) := by
  show (cfg1.win 3).cut (grid1.coords (tpt1 a 3)) ((dat1 V c).after 3 (tpt1 a 3)) = _
  rw [after1_3]
  unfold outAt1 outLast1
  rw [acc_last1 V c a]
  funext y
  obtain ⟨p, q, rfl⟩ : ∃ (p : Fin 1024) (q : Fin 128), y = ix2 p q := ⟨y 0, y 1, eq_ix2 y⟩
  have hr : 1024 * a.val + p.val < 8192 := by omega
  have hxinj : (cfg1.win 3).xinj (grid1.coords (tpt1 a 3)) (ix2 p q) = ix2 p q :=
    funext fun d => by match d with | ⟨0, _⟩ => rfl | ⟨1, _⟩ => rfl
  show k1_pay3 _ (blk1 V c 2 (tpt1 a 3)) ((cfg1.win 3).xinj (grid1.coords (tpt1 a 3)) (ix2 p q))
      = G1 V c (((cfg1.win 3).blk (tpt1 a 3)).view.emb (ix2 p q))
  rw [hxinj, out1_emb (tpt1 a 3) p q ⟨1024 * a.val + p.val, hr⟩ (by show 1024 * a.val + p.val = 1024 * ((4 * a.val + 3) / 4) + p.val; omega)]
  exact out_entry1 (V c main_arg2) (V c main_v6) (V c main_v5)
    (fun k => blk1 V c 0 (tpt1 a k)) (fun k => View.ld (blk1 V c 1 (tpt1 a k)) (rowsAt1 (grid1.coords (tpt1 a k)))) (blk1 V c 2 (tpt1 a 3))
    ⟨1024 * a.val + p.val, hr⟩ p q
    (fun k j => blk1_0_at V c (tpt1 a k) p j _ _
      (by show 1024 * a.val + p.val = 1024 * ((4 * a.val + k.val) / 4) + p.val; omega)
      (by show 2048 * k.val + j.val = 2048 * ((4 * a.val + k.val) % 4) + j.val; omega))
    (fun k j => rows1_at V c (tpt1 a k) j q _
      (by show 2048 * k.val + j.val = 2048 * ((4 * a.val + k.val) % 4) + j.val; omega))
    (blk1_2_at V c (tpt1 a 3) 0 q)

/-- What every flushing point writes back is its block of `G1`. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  have hN : t.val < 32 := lt_of_lt_of_eq t.isLt (show cfg1.N = 32 from N_1)
  have ht : t = tpt1 ⟨t.val / 4, by omega⟩ 3 := Fin.ext (by show t.val = 4 * (t.val / 4) + 3; omega)
  rw [ht]
  exact flushed1_at V c _

/-- Row r of the output array is in the block of the last point of row tile r / 1024. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : (i 0).val < 8192 := (i 0).isLt
  have hi1 : (i 1).val < 128 := (i 1).isLt
  obtain ⟨a, ha⟩ : ∃ a : Fin 8, a.val = (i 0).val / 1024 := ⟨⟨(i 0).val / 1024, by omega⟩, rfl⟩
  refine ⟨tpt1 a 3, (flush1_3 _).mpr (by show (4 * a.val + 3) % 4 = 3; omega), ?_⟩
  obtain ⟨e0, e1, e2, e3, e4, e5, e6, e7, -⟩ := idx_facts1 (tpt1 a 3)
  have e6' : win1_3.index (tpt1 a 3) (0 : Fin 2) = a.val := by
    rw [e6]; show (4 * a.val + 3) / 4 = a.val; omega
  show i ∈ ((View.whole main_v7).slice (win1_3.rect (tpt1 a 3))).set
  rw [View.set_slice_whole, Rect.mem_set_unit]
  intro ax
  match ax with
  | ⟨0, _⟩ =>
    show win1_3.index (tpt1 a 3) (0 : Fin 2) * 1024 ≤ (i 0).val ∧ (i 0).val < win1_3.index (tpt1 a 3) (0 : Fin 2) * 1024 + 1024
    omega
  | ⟨1, _⟩ =>
    show win1_3.index (tpt1 a 3) (1 : Fin 2) * 128 ≤ (i 1).val ∧ (i 1).val < win1_3.index (tpt1 a 3) (1 : Fin 2) * 128 + 128
    omega

/-- The second region's output array ends holding `G1` of the arrays the region finds. -/
theorem final1 (c : Dev nD) : (dat1 V c).arrAt 3 cfg1.N = G1 V c :=
  (dat1 V c).arrAt_eq_of_cover 3 (G1 V c) (flushed1_eq V c) (cover1 c)

/-- The second region's output array at (r, q). -/
theorem final1_apply (c : Dev nD) (r : Fin 8192) (q : Fin 128) :
    ((dat1 V c).arrAt 3 cfg1.N : S8192x128.Idx → EReal) (ix2 r q)
      = G1fun (V c main_arg2) (V c main_v6) (V c main_v5) (ix2 r q) := by
  rw [final1]; rfl

end Cert.KernelIdeal.Math

end
-- ==== Proof.HostStages.lean ====
/-
  The host operations before the two kernels, read entry by entry on the extended reals.

  From any contents W0 of the buffers, the seven host operations leave: in the first product's buffer, x times W
  (entry (l, q) is the sum over the 128 shared coordinates); in the scale's column buffer, at (j, 0), the sum over the
  three levels of (d * f) * d at column j (the sum starts from the zero word, which is the extended real 0); in the
  bias's row buffer, at (0, q), the bias at q; and the seven argument buffers as they were.
-/
import proofs.«108723_j47047071760998_2_alg».proof.Proof.Gen.KernelIdeal.Launch
import proofs.«108723_j47047071760998_2_alg».proof.Proof.Spec
import proofs.«108723_j47047071760998_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Math

open Cert.KernelIdeal Cert.KernelIdeal.Gen Idealize.ShloMosaic Idealize.ShloMosaic.ValueIdx Idealize.ShloMosaic.StableHlo

/-! ## The host product x times W at an entry -/

/-- The left operand's index of the host product at output entry `i`: its row is `i`'s row. -/
theorem lhs_host_0 (i : S8192x128.Idx) (k : dot_S8192x128_S128x128_S8192x128_1_0_0_1_n_n.contr.Idx) :
    (dot_S8192x128_S128x128_S8192x128_1_0_0_1_n_n.lhsIdx i k 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The right operand's index of the host product at output entry `i`: its column is `i`'s column. -/
theorem rhs_host_1 (i : S8192x128.Idx) (k : dot_S8192x128_S128x128_S8192x128_1_0_0_1_n_n.contr.Idx) :
    (dot_S8192x128_S128x128_S8192x128_1_0_0_1_n_n.rhsIdx i k 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The host's product of an 8192 × 128 array with a 128 × 128 array: entry (l, q) is the sum over the shared axis. -/
theorem dot_host_apply (x : FVec Ideal S8192x128 .f32) (w : FVec Ideal S128x128 .f32) (l : Fin 8192) (q : Fin 128) :
    (Host.dotGeneral (F := Ideal) dot_S8192x128_S128x128_S8192x128_1_0_0_1_n_n none x w : FVec Ideal S8192x128 .f32) (ix2 l q) = Cert.Spec.xw x w l q := by
  unfold Cert.Spec.xw
  simp only [Host.dotGeneral]
  rw [Ideal.dotGeneral_apply, ← Equiv.sum_comp (contrEquiv1 dot_S8192x128_S128x128_S8192x128_1_0_0_1_n_n 128 rfl rfl).symm]
  refine Finset.sum_congr rfl fun a _ => ?_
  have ha := contrEquiv1_symm_val dot_S8192x128_S128x128_S8192x128_1_0_0_1_n_n 128 rfl rfl a
  have el : dot_S8192x128_S128x128_S8192x128_1_0_0_1_n_n.lhsIdx (ix2 l q) ((contrEquiv1 dot_S8192x128_S128x128_S8192x128_1_0_0_1_n_n 128 rfl rfl).symm a) = ix2 l a :=
    funext fun d => Fin.ext (by
      match d with
      | ⟨0, _⟩ => exact lhs_host_0 _ _
      | ⟨1, _⟩ => exact (dot_S8192x128_S128x128_S8192x128_1_0_0_1_n_n.lhsIdx_val_of_single rfl (ix2 l q) _).trans ha)
  have er : dot_S8192x128_S128x128_S8192x128_1_0_0_1_n_n.rhsIdx (ix2 l q) ((contrEquiv1 dot_S8192x128_S128x128_S8192x128_1_0_0_1_n_n 128 rfl rfl).symm a) = ix2 a q :=
    funext fun d => Fin.ext (by
      match d with
      | ⟨0, _⟩ => exact (dot_S8192x128_S128x128_S8192x128_1_0_0_1_n_n.rhsIdx_val_of_single rfl (ix2 l q) _).trans ha
      | ⟨1, _⟩ => exact rhs_host_1 _ _)
  rw [el, er]

/-! ## The host's sum over the three levels at an entry -/

/-- The host's sum of a 3 × 8192 array over its first axis, started from the zero word: entry j is the sum over the
    three levels (the zero word is the extended real 0, and 0 + s = s). -/
theorem reduce_levels_apply (y : FVec Ideal S3x8192 .f32) (j : Fin 8192) :
    (Host.reduceAdd (F := Ideal) y (constant (F := Ideal) S_ .f32 0x00000000#32) reducesTo_S3x8192_S8192_d0 h_S_ : FVec Ideal S8192 .f32) (ix1 j)
      = ∑ t : Fin 3, y (ix2 t j) := by
  simp only [Host.reduceAdd, Ideal.hostReduceAdd_def]
  rw [Ideal.hostReduceAdd_single reducesTo_S3x8192_S8192_d0 (by decide)]
  refine (congrArg (· + _) (show _ = (0 : EReal) from Ideal.ofBits_zero_f32)).trans ((zero_add _).trans ?_)
  refine Finset.sum_congr rfl fun t _ => ?_
  exact congrArg y (funext fun a => Fin.ext (by match a with | ⟨0, _⟩ => rfl | ⟨1, _⟩ => rfl))

/-! ## The buffers after the host operations -/

/-- The first product's buffer holds x times W. -/
theorem host_v0 (W0 : Valuation τ sig (Elt Ideal)) :
    (after (hostOps0 (F := Ideal)) W0 (Proc.devRef .tc main_v0) : S8192x128.Idx → EReal)
      = Host.dotGeneral (F := Ideal) (φ₁ := .f32) (φ₂ := .f32) dot_S8192x128_S128x128_S8192x128_1_0_0_1_n_n none (W0 (Proc.devRef .tc main_arg0))
          (W0 (Proc.devRef .tc main_arg4)) := by
  dsimp only [hostOps0]
  after_results

/-- The scale's column buffer holds the sum over the levels of (d * f) * d, recast as a column. -/
theorem host_v4 (W0 : Valuation τ sig (Elt Ideal)) :
    (after (hostOps0 (F := Ideal)) W0 (Proc.devRef .tc main_v4) : S8192x1.Idx → EReal)
      = shapeCast S8192x1 (Host.reduceAdd (F := Ideal) (mulf (mulf (W0 (Proc.devRef .tc main_arg1)) (W0 (Proc.devRef .tc main_arg5))) (W0 (Proc.devRef .tc main_arg1)))
          (constant (F := Ideal) S_ .f32 0x00000000#32) reducesTo_S3x8192_S8192_d0 h_S_) shapeCasts_S8192_S8192x1 := by
  dsimp only [hostOps0]
  after_results
  rfl

/-- The bias's row buffer holds the bias recast as one row. -/
theorem host_v5 (W0 : Valuation τ sig (Elt Ideal)) :
    (after (hostOps0 (F := Ideal)) W0 (Proc.devRef .tc main_v5) : S1x128.Idx → EReal)
      = shapeCast S1x128 (W0 (Proc.devRef .tc main_arg6)) shapeCasts_S128_S1x128 := by
  dsimp only [hostOps0]
  after_results
  rfl

/-- After the host operations the first product's buffer at (l, q) is x times W there. -/
theorem host_xw (W0 : Valuation τ sig (Elt Ideal)) (l : Fin 8192) (q : Fin 128) :
    (after (hostOps0 (F := Ideal)) W0 (Proc.devRef .tc main_v0) : S8192x128.Idx → EReal) (ix2 l q)
      = Cert.Spec.xw (W0 (Proc.devRef .tc main_arg0)) (W0 (Proc.devRef .tc main_arg4)) l q := by
  rw [host_v0, dot_host_apply]

/-- After the host operations the scale's column buffer at (j, 0) is row j's scale. -/
theorem host_scl (W0 : Valuation τ sig (Elt Ideal)) (j : Fin 8192) (u : Fin 1) :
    (after (hostOps0 (F := Ideal)) W0 (Proc.devRef .tc main_v4) : S8192x1.Idx → EReal) (ix2 j u)
      = Cert.Spec.scl (W0 (Proc.devRef .tc main_arg1)) (W0 (Proc.devRef .tc main_arg5)) j := by
  rw [host_v4, Keepdims.shapeCast_a_a1_apply, reduce_levels_apply]
  rfl

/-- After the host operations the bias's row buffer at (0, q) is the bias at q. -/
theorem host_bias (W0 : Valuation τ sig (Elt Ideal)) (u : Fin 1) (q : Fin 128) :
    (after (hostOps0 (F := Ideal)) W0 (Proc.devRef .tc main_v5) : S1x128.Idx → EReal) (ix2 u q)
      = (W0 (Proc.devRef .tc main_arg6) : S128.Idx → EReal) (ix1 q) := by
  rw [host_v5, shapeCast_a_1a_apply]

/-! ## The argument buffers are not written -/

theorem host_arg0 (W0 : Valuation τ sig (Elt Ideal)) :
    after (hostOps0 (F := Ideal)) W0 (Proc.devRef .tc main_arg0) = W0 (Proc.devRef .tc main_arg0) := by
  dsimp only [hostOps0]
  after_results
theorem host_arg1 (W0 : Valuation τ sig (Elt Ideal)) :
    after (hostOps0 (F := Ideal)) W0 (Proc.devRef .tc main_arg1) = W0 (Proc.devRef .tc main_arg1) := by
  dsimp only [hostOps0]
  after_results
theorem host_arg2 (W0 : Valuation τ sig (Elt Ideal)) :
    after (hostOps0 (F := Ideal)) W0 (Proc.devRef .tc main_arg2) = W0 (Proc.devRef .tc main_arg2) := by
  dsimp only [hostOps0]
  after_results
theorem host_arg3 (W0 : Valuation τ sig (Elt Ideal)) :
    after (hostOps0 (F := Ideal)) W0 (Proc.devRef .tc main_arg3) = W0 (Proc.devRef .tc main_arg3) := by
  dsimp only [hostOps0]
  after_results
theorem host_arg4 (W0 : Valuation τ sig (Elt Ideal)) :
    after (hostOps0 (F := Ideal)) W0 (Proc.devRef .tc main_arg4) = W0 (Proc.devRef .tc main_arg4) := by
  dsimp only [hostOps0]
  after_results
theorem host_arg5 (W0 : Valuation τ sig (Elt Ideal)) :
    after (hostOps0 (F := Ideal)) W0 (Proc.devRef .tc main_arg5) = W0 (Proc.devRef .tc main_arg5) := by
  dsimp only [hostOps0]
  after_results
theorem host_arg6 (W0 : Valuation τ sig (Elt Ideal)) :
    after (hostOps0 (F := Ideal)) W0 (Proc.devRef .tc main_arg6) = W0 (Proc.devRef .tc main_arg6) := by
  dsimp only [hostOps0]
  after_results

end Cert.KernelIdeal.Math

end
-- ==== Proof.Value.lean ====
import proofs.«108723_j47047071760998_2_alg».proof.Proof.Run
import proofs.«108723_j47047071760998_2_alg».proof.Proof.Final0
import proofs.«108723_j47047071760998_2_alg».proof.Proof.Final1
import proofs.«108723_j47047071760998_2_alg».proof.Proof.HostStages

noncomputable section

/-! # The idealized kernel's result

On the extended reals the result array after the run is one function of the seven argument arrays: entry (r, q) is
`∑ j, U (r, j) · ((∑ l, Vt (j, l) · (x·W) (l, q)) · scale j) + bias q`. The second region's output is read through
its closed form over the arrays it finds; of those, its right operand is the first region's output, read through
that region's closed form in turn, and the remaining arrays are the host stretch's results or arguments. -/

namespace Cert.KernelIdeal.Hand

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ)

/-- The host stretch leaves an argument as launched. -/
theorem atEntry_arg (c : Dev nD) (b : Ref sig .tc) (hb : b ∉ hostWrites) : atEntry m c (Proc.devRef .tc b) = atLaunch m c (Proc.devRef .tc b) :=
  StableHlo.after_of_writes_sub hostOps0 _ hostOps0_writes hb

/-- What the second region's write-backs leave in the result array is the specification's function of the arguments. -/
theorem kernel_value (c : Dev nD) :
    (dat1 (F := Ideal) (atExit0V m) c).arrAt 3 cfg1.N
      = Cert.Spec.specOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.KernelIdeal.Math.final1]
  have hU : atExit0V m c main_arg2 = m ((c : Thread nD τ).loc main_arg2) :=
    (atExit0_of_ne m c main_arg2 (by decide)).trans (atEntry_arg m c main_arg2 (by decide))
  have hmid : atExit0V m c main_v6 = Cert.KernelIdeal.Math.G0 (atEntryV m) c :=
    (atExit0_arr m c 3).trans (Cert.KernelIdeal.Math.final0 (atEntryV m) c)
  have hb : atExit0V m c main_v5 = atEntryV m c main_v5 := atExit0_of_ne m c main_v5 (by decide)
  have hVt : atEntryV m c main_arg3 = m ((c : Thread nD τ).loc main_arg3) := atEntry_arg m c main_arg3 (by decide)
  unfold Cert.KernelIdeal.Math.G1
  rw [hU, hmid, hb]
  unfold Cert.KernelIdeal.Math.G0
  rw [hVt]
  funext i
  obtain ⟨r, q, rfl⟩ : ∃ (r : Fin 8192) (q : Fin 128), i = ix2 r q := ⟨i 0, i 1, eq_ix2 i⟩
  rw [Cert.KernelIdeal.Math.G1fun_apply, Cert.Spec.specOut_apply]
  simp only [Cert.KernelIdeal.Math.G0fun_apply]
  have hxw : ∀ (l : Fin 8192) (q : Fin 128), (atEntryV m c main_v0 : S8192x128.Idx → EReal) (ix2 l q)
      = Cert.Spec.xw (m ((c : Thread nD τ).loc main_arg0)) (m ((c : Thread nD τ).loc main_arg4)) l q := fun l q => Cert.KernelIdeal.Math.host_xw (atLaunch m c) l q
  have hscl : ∀ (j : Fin 8192), (atEntryV m c main_v4 : S8192x1.Idx → EReal) (ix2 j (0 : Fin 1))
      = Cert.Spec.scl (m ((c : Thread nD τ).loc main_arg1)) (m ((c : Thread nD τ).loc main_arg5)) j := fun j => Cert.KernelIdeal.Math.host_scl (atLaunch m c) j 0
  have hbias : (atEntryV m c main_v5 : S1x128.Idx → EReal) (ix2 (0 : Fin 1) q)
      = ((m ((c : Thread nD τ).loc main_arg6)) : S128.Idx → EReal) (ix1 q) := Cert.KernelIdeal.Math.host_bias (atLaunch m c) 0 q
  simp only [hxw, hscl, hbias]
  rfl

end Cert.KernelIdeal.Hand
end
-- ==== Proof.RefIsSpec.lean ====
/-
  The reference program's result is the specification.

  The reference computes, stage by stage, x times W; Vt times that; the row scale as the zero word plus the sum over the
  three levels; the scale broadcast along the columns times the product (scale on the LEFT); U times the scaled array;
  and the bias broadcast down the rows, added. Read entry by entry this is the specification's `out`, with two
  differences that the laws of the extended reals remove: the scale multiplies on the other side (commutativity of the
  product), and the sum over the levels starts from the zero word, which is the extended real 0 (0 + s = s).
-/
import proofs.«108723_j47047071760998_2_alg».proof.Proof.Gen.ReferenceIdeal.Read
import proofs.«108723_j47047071760998_2_alg».proof.Proof.Spec

noncomputable section

namespace Cert.ReferenceIdeal.Math

open Cert.ReferenceIdeal Idealize.ShloMosaic Idealize.ShloMosaic.ValueIdx

/-! ## The operand indices of each stage, at an entry given by its coordinates -/

theorem lidx0 (l : Fin 8192) (q : Fin 128) (a : Fin 128) : Read.lidx_main_v0 (ix2 l q) a = ix2 l a :=
  funext fun d => by match d with | ⟨0, _⟩ => rfl | ⟨1, _⟩ => rfl
theorem ridx0 (l : Fin 8192) (q : Fin 128) (a : Fin 128) : Read.ridx_main_v0 (ix2 l q) a = ix2 a q :=
  funext fun d => by match d with | ⟨0, _⟩ => rfl | ⟨1, _⟩ => rfl
theorem lidx1 (j : Fin 8192) (q : Fin 128) (l : Fin 8192) : Read.lidx_main_v1 (ix2 j q) l = ix2 j l :=
  funext fun d => by match d with | ⟨0, _⟩ => rfl | ⟨1, _⟩ => rfl
theorem ridx1 (j : Fin 8192) (q : Fin 128) (l : Fin 8192) : Read.ridx_main_v1 (ix2 j q) l = ix2 l q :=
  funext fun d => by match d with | ⟨0, _⟩ => rfl | ⟨1, _⟩ => rfl
theorem idx4 (j : Fin 8192) (t : Fin 3) : Read.idx_main_v4 (ix1 j) t = ix2 t j :=
  funext fun d => by match d with | ⟨0, _⟩ => rfl | ⟨1, _⟩ => rfl
theorem idx5 (j : Fin 8192) (u : Fin 1) : Read.idx_main_v5 (ix2 j u) = ix1 j :=
  funext fun d => by match d with | ⟨0, _⟩ => rfl
theorem idx6 (j : Fin 8192) (q : Fin 128) : Read.idx_main_v6 (ix2 j q) = ix2 j (0 : Fin 1) :=
  funext fun d => by match d with | ⟨0, _⟩ => rfl | ⟨1, _⟩ => rfl
theorem lidx8 (r : Fin 8192) (q : Fin 128) (j : Fin 8192) : Read.lidx_main_v8 (ix2 r q) j = ix2 r j :=
  funext fun d => by match d with | ⟨0, _⟩ => rfl | ⟨1, _⟩ => rfl
theorem ridx8 (r : Fin 8192) (q : Fin 128) (j : Fin 8192) : Read.ridx_main_v8 (ix2 r q) j = ix2 j q :=
  funext fun d => by match d with | ⟨0, _⟩ => rfl | ⟨1, _⟩ => rfl
theorem idx9 (u : Fin 1) (q : Fin 128) : Read.idx_main_v9 (ix2 u q) = ix1 q :=
  funext fun d => by match d with | ⟨0, _⟩ => rfl
theorem idx10 (r : Fin 8192) (q : Fin 128) : Read.idx_main_v10 (ix2 r q) = ix2 (0 : Fin 1) q :=
  funext fun d => by match d with | ⟨0, _⟩ => rfl | ⟨1, _⟩ => rfl

/-! ## The stages at an entry -/

/-- x times W at (l, q). -/
theorem v0_at (x0 : (⟨S8192x128, .f32⟩ : BufTy).Contents (Elt Ideal)) (x4 : (⟨S128x128, .f32⟩ : BufTy).Contents (Elt Ideal))
    (l : Fin 8192) (q : Fin 128) :
    Read.val_main_v0 (F := Ideal) x0 x4 (ix2 l q) = Cert.Spec.xw x0 x4 l q := by
  rw [Read.val_main_v0_apply]
  unfold Cert.Spec.xw
  exact Finset.sum_congr rfl fun a _ => by rw [lidx0, ridx0]

/-- Vt times (x times W) at (j, q). -/
theorem v1_at (x0 : (⟨S8192x128, .f32⟩ : BufTy).Contents (Elt Ideal)) (x3 : (⟨S8192x8192, .f32⟩ : BufTy).Contents (Elt Ideal))
    (x4 : (⟨S128x128, .f32⟩ : BufTy).Contents (Elt Ideal)) (j : Fin 8192) (q : Fin 128) :
    Read.val_main_v1 (F := Ideal) x0 x3 x4 (ix2 j q) = ∑ l : Fin 8192, x3 (ix2 j l) * Cert.Spec.xw x0 x4 l q := by
  rw [Read.val_main_v1_apply]
  exact Finset.sum_congr rfl fun l _ => by rw [lidx1, ridx1, v0_at]

/-- The row scale at j: the zero word is the extended real 0, and 0 + s = s. -/
theorem v4_at (x1 x5 : (⟨S3x8192, .f32⟩ : BufTy).Contents (Elt Ideal)) (j : Fin 8192) :
    Read.val_main_v4 (F := Ideal) x1 x5 (ix1 j) = Cert.Spec.scl x1 x5 j := by
  rw [Read.val_main_v4_apply, Read.val_main_cst_apply]
  unfold Cert.Spec.scl
  refine (congrArg (· + _) Ideal.ofBits_zero_f32).trans ((zero_add _).trans ?_)
  exact Finset.sum_congr rfl fun t _ => by rw [idx4]; rfl

/-- The scale broadcast along the columns, at (j, q). -/
theorem v6_at (x1 x5 : (⟨S3x8192, .f32⟩ : BufTy).Contents (Elt Ideal)) (j : Fin 8192) (q : Fin 128) :
    Read.val_main_v6 (F := Ideal) x1 x5 (ix2 j q) = Cert.Spec.scl x1 x5 j := by
  rw [Read.val_main_v6_apply, idx6, Read.val_main_v5_apply, idx5, v4_at]

/-- The scaled array at (j, q): the scale times the product is the product times the scale. -/
theorem v7_at (x0 : (⟨S8192x128, .f32⟩ : BufTy).Contents (Elt Ideal)) (x1 : (⟨S3x8192, .f32⟩ : BufTy).Contents (Elt Ideal))
    (x3 : (⟨S8192x8192, .f32⟩ : BufTy).Contents (Elt Ideal)) (x4 : (⟨S128x128, .f32⟩ : BufTy).Contents (Elt Ideal))
    (x5 : (⟨S3x8192, .f32⟩ : BufTy).Contents (Elt Ideal)) (j : Fin 8192) (q : Fin 128) :
    Read.val_main_v7 (F := Ideal) x0 x1 x3 x4 x5 (ix2 j q) = Cert.Spec.mid x0 x1 x3 x4 x5 j q := by
  rw [Read.val_main_v7_apply, v6_at, v1_at]
  unfold Cert.Spec.mid
  exact mul_comm _ _

/-- The bias broadcast down the rows, at (r, q). -/
theorem v10_at (x6 : (⟨S128, .f32⟩ : BufTy).Contents (Elt Ideal)) (r : Fin 8192) (q : Fin 128) :
    Read.val_main_v10 (F := Ideal) x6 (ix2 r q) = x6 (ix1 q) := by
  rw [Read.val_main_v10_apply, idx10, Read.val_main_v9_apply, idx9]

/-- The reference's result, as a function of the seven argument arrays, is the specification. -/
theorem ref_eq_spec (x0 : (⟨S8192x128, .f32⟩ : BufTy).Contents (Elt Ideal)) (x1 : (⟨S3x8192, .f32⟩ : BufTy).Contents (Elt Ideal))
    (x2 x3 : (⟨S8192x8192, .f32⟩ : BufTy).Contents (Elt Ideal)) (x4 : (⟨S128x128, .f32⟩ : BufTy).Contents (Elt Ideal))
    (x5 : (⟨S3x8192, .f32⟩ : BufTy).Contents (Elt Ideal)) (x6 : (⟨S128, .f32⟩ : BufTy).Contents (Elt Ideal)) :
    Read.val_main_v11 (F := Ideal) x0 x1 x2 x3 x4 x5 x6 = Cert.Spec.specOut x0 x1 x2 x3 x4 x5 x6 := by
  funext i
  obtain ⟨r, q, rfl⟩ : ∃ (r : Fin 8192) (q : Fin 128), i = ix2 r q := ⟨i 0, i 1, eq_ix2 i⟩
  rw [Cert.Spec.specOut_apply, Read.val_main_v11_apply, Read.val_main_v8_apply, v10_at]
  unfold Cert.Spec.out
  refine congrArg (· + x6 (ix1 q)) (Finset.sum_congr rfl fun j _ => ?_)
  rw [lidx8, ridx8, v7_at]

end Cert.ReferenceIdeal.Math

end
-- ==== Proof.lean ====
/-
  The kernel computes `U · ((Vt · (x·W)) ⊙ scale) + bias` with two tiled matrix products, each accumulated over four
  contraction tiles in a scratch buffer and finished at the last tile (the first by the row scale, the second by
  the bias row); the reference computes `U · (scale ⊙ (Vt · (x·W))) + bias` with whole products. On the extended
  reals a format change is the identity and every operation exact, so the two results are one function of the
  arguments: the tiled sums are the whole sums (addition is commutative and associative; no infinity has to be
  excluded) and the scale commutes across the product. The frames follow from the run of @main through its host
  stretch and two regions, with the scratch accumulator tracked point by point; the idealization rewrote nothing,
  so there is nothing to preserve.
-/
import proofs.«108723_j47047071760998_2_alg».proof.Defs
import proofs.«108723_j47047071760998_2_alg».proof.Proof.Gen.Kernel
import proofs.«108723_j47047071760998_2_alg».proof.Proof.Gen.KernelIdeal
import proofs.«108723_j47047071760998_2_alg».proof.Proof.Gen.ReferenceIdeal
import proofs.«108723_j47047071760998_2_alg».proof.Proof.Gen.Pre_finite_inputs
import proofs.«108723_j47047071760998_2_alg».proof.Proof.Gen.ReferenceIdeal.Run
import proofs.«108723_j47047071760998_2_alg».proof.Proof.BitsRun
import proofs.«108723_j47047071760998_2_alg».proof.Proof.Value
import proofs.«108723_j47047071760998_2_alg».proof.Proof.RefIsSpec

noncomputable section

namespace Cert.Proof

open Idealize.ShloMosaic Idealize.ShloMosaic.TcCoe Idealize.SL.Sem

/-- The printed kernel runs to the end, faults nowhere and leaves its arguments as launched. -/
theorem frame_kernel [Cert.Kernel.Facts] [Cert.Pre_finite_inputs.Facts] : Cert.frame_Kernel :=
  fun m ρ _ => Cert.Kernel.Hand.frame (F := Bits) m ρ

/-- So does the idealized kernel. -/
theorem frame_kernelIdeal [Cert.KernelIdeal.Facts] [Cert.Pre_finite_inputs.Facts] : Cert.frame_KernelIdeal :=
  fun m ρ _ => Cert.KernelIdeal.Hand.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the specification's function of the arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.specOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_value m c), (h c).2⟩)
      (Cert.KernelIdeal.Hand.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v11_eq, Cert.ReferenceIdeal.Math.ref_eq_spec,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
